-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩

abbrev nBuf : Space → Nat
  | .hbm => 63
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S1x128, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000x128, .f32⟩
  | .hbm, ⟨32, _⟩ => ⟨S_, .f32⟩
  | .hbm, ⟨33, _⟩ => ⟨S100000x128, .f32⟩
  | .hbm, ⟨34, _⟩ => ⟨S1700000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x1, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x1, .f32⟩
  | .local _ .vmem, ⟨5, _⟩ => ⟨S4000x1, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S4000x128_S4000x128 : S4000x128.ShapeCasts S4000x128
  reduces_S4000x128_S128 : S4000x128.Reduces [0] S128
  shapeCasts_S1x128_S128 : S1x128.ShapeCasts S128
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x128 : Shape := ⟨2, ![1, 128]⟩
abbrev S_ : Shape := ⟨0, ![]⟩
abbrev S1700000x1 : Shape := ⟨2, ![1700000, 1]⟩
abbrev S1700000x128 : Shape := ⟨2, ![1700000, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S128, .f32⟩
  | .hbm, ⟨113, _⟩ => ⟨S_, .f32⟩
  | .hbm, ⟨114, _⟩ => ⟨S128, .f32⟩
  | .hbm, ⟨115, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named. The program is three kernel regions among stretches of host
  operations; its buffers' contents at each boundary are a fold from the launch memory (the stretch's operations applied,
  or a region's arrays at what its write-backs leave). Every weakly fair execution terminates without a fault, the
  result buffer ends at the last boundary's contents, and the argument arrays end as launched.
-/
import proofs.«141483_j2800318677072_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from a memory with zero counters terminates, nothing faulting; the
    result buffer then holds the last boundary's contents and every argument array what it held at launch. -/
theorem run_result : θ_run defs (onTc (τ := τ) (main (F := F))) ⟨m, fun _ => 0, ρ⟩ (fun r => ∀ c : Dev nD,
      r.2.mem ((c.tc : Thread nD τ).loc main_v46) = W9 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v46 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.RegionLinear.lean ====
/-
  The two scaled affine layers, each as one function of whole arrays.

  Regions 0 and 1 run the same body over 25 grid points. At point `t` the body reads rows `4000·t … 4000·t + 3999`
  of an input array `X` ([100000, 128]) and of a scale column `D` ([100000, 1]), the whole weight matrix `W`
  ([128, 128]) and the whole bias row `B` ([1, 128]), and writes the same rows of the output array:
      out (p, q) = ((∑ k, X (p, k) · W (k, q)) + B (0, q)) · D (p, 0).
  On the extended reals the roundings of `X` and `W` to bf16 are the identity and the matrix product, which
  accumulates into zero, is the plain sum over `k`, so the value at an entry does not depend on the tiling: every
  block written back is the restriction of this one function, and the 25 blocks cover all 100000 rows (row `p` is
  written by point `p / 4000`). The result is stated for arbitrary contents `V` of the buffers when the region is
  entered.
-/
import proofs.«141483_j2800318677072_2_alg».proof.Proof.Gen.KernelIdeal.Frame
import proofs.«141483_j2800318677072_2_alg».proof.Proof.LibPlainDot
import proofs.«141483_j2800318677072_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)
open scoped BigOperators

/-! ## One grid point: the body's stored value at an entry -/

/-- The scaled affine map of one block, read at the entry `(r, q)`: the product of the block's rows with the
    weight matrix (the roundings to bf16 are the identity on the extended reals, and the product accumulates
    into zero, so it is the plain sum over `k`), plus the bias row spread over all rows, times the scale column
    spread over all lanes. -/
theorem linear_apply (x : FVec Ideal S4000x128 .f32) (w : FVec Ideal S128x128 .f32) (b : FVec Ideal S1x128 .f32)
    (d : FVec Ideal S4000x1 .f32) (hb : FTy.bits .bf16 < FTy.bits .f32) (h1 : S1x128.Broadcasts S4000x128)
    (h2 : S4000x1.Broadcasts S4000x128) (r : Fin 4000) (q : Fin 128) :
    mulf (addf (matmul dot_S4000x128_S128x128_S4000x128_1_0_0_1_n_n none (truncf .bf16 x hb) (truncf .bf16 w hb)
        (constant S4000x128 .f32 0x00000000#32)) (broadcastTo S4000x128 b h1)) (broadcastTo S4000x128 d h2) (ix2 r q)
      = ((∑ k : Fin 128, x (ix2 r k) * w (ix2 k q)) + b (ix2 (0 : Fin 1) q)) * d (ix2 r (0 : Fin 1)) := by
  rw [mulf_apply, addf_apply, broadcastTo_1b_ab_apply, Keepdims.broadcastTo_a1_ab_apply]
  refine congrArg (fun s => (s + b (ix2 (0 : Fin 1) q)) * d (ix2 r (0 : Fin 1))) ?_
  refine (Ideal.matmul_constant_zero_apply dot_S4000x128_S128x128_S4000x128_1_0_0_1_n_n none _ _ (ix2 r q)).trans ?_
  exact Cert.PlainDot.contraction_eq (M := 4000) (K := 128) (N := 128) x w r q

/-- Region 0's stored value at `(r, q)`. -/
theorem pay0_apply (x : Vec Ideal S4000x128 .f32) (w : Vec Ideal S128x128 .f32) (b : Vec Ideal S1x128 .f32)
    (d : Vec Ideal S4000x1 .f32) (r : Fin 4000) (q : Fin 128) :
    Gen.k0_pay1 (F := Ideal) x w b d (ix2 r q)
      = ((∑ k : Fin 128, x (ix2 r k) * w (ix2 k q)) + b (ix2 (0 : Fin 1) q)) * d (ix2 r (0 : Fin 1)) := by
  unfold Gen.k0_pay1
  simp only [shapeCast_self]
  exact linear_apply x w b d _ _ _ r q

/-- Region 1's stored value at `(r, q)`: the same map (its body differs by one cast of a shape to itself). -/
theorem pay1_apply (x : Vec Ideal S4000x128 .f32) (w : Vec Ideal S128x128 .f32) (b : Vec Ideal S1x128 .f32)
    (d : Vec Ideal S4000x1 .f32) (r : Fin 4000) (q : Fin 128) :
    Gen.k1_pay1 (F := Ideal) x w b d (ix2 r q)
      = ((∑ k : Fin 128, x (ix2 r k) * w (ix2 k q)) + b (ix2 (0 : Fin 1) q)) * d (ix2 r (0 : Fin 1)) := by
  unfold Gen.k1_pay1
  simp only [shapeCast_self]
  exact linear_apply x w b d _ _ _ r q

/-! ## The whole array as one function of the region's four inputs -/

/-- The entry `(p, q)` of the scaled affine map of whole arrays: row `p` of `X` against column `q` of `W`, plus the
    bias at `q`, times the scale of row `p`. -/
def scaledAffineAt (X : S100000x128.Idx → EReal) (W : S128x128.Idx → EReal) (B : S1x128.Idx → EReal) (D : S100000x1.Idx → EReal)
    (p : Fin 100000) (q : Fin 128) : EReal :=
  ((∑ k : Fin 128, X (ix2 p k) * W (ix2 k q)) + B (ix2 (0 : Fin 1) q)) * D (ix2 p (0 : Fin 1))

/-- The same as a function of the array's index. -/
def scaledAffine (X : S100000x128.Idx → EReal) (W : S128x128.Idx → EReal) (B : S1x128.Idx → EReal) (D : S100000x1.Idx → EReal) :
    S100000x128.Idx → EReal :=
  fun i => scaledAffineAt X W B D ⟨(i 0).val, (i 0).isLt⟩ ⟨(i 1).val, (i 1).isLt⟩

theorem scaledAffine_ix2 (X : S100000x128.Idx → EReal) (W : S128x128.Idx → EReal) (B : S1x128.Idx → EReal) (D : S100000x1.Idx → EReal)
    (p : Fin 100000) (q : Fin 128) : scaledAffine X W B D (ix2 p q) = scaledAffineAt X W B D p q := rfl

theorem offsets_zero : (![0, 0] : Fin 2 → Nat) = fun _ => 0 := funext fun a => by fin_cases a <;> rfl

variable (V : (c : Dev nD) → (b : Ref sig .tc) → Buf (Elt Ideal) ((c : Thread nD τ).loc b))

/-! ## Region 0 -/

/-- Where each window's block sits at grid point `t`: the row windows (input rows, scale column, output) are at
    block row `t`; the weight matrix and the bias row are their whole arrays at every point. Decided over the 25 points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The four input arrays as region 0 finds them. -/
abbrev inX0 (c : Dev nD) : S100000x128.Idx → EReal := V c (Pipeline.arrRef spec0 0)
abbrev inW0 (c : Dev nD) : S128x128.Idx → EReal := V c (Pipeline.arrRef spec0 1)
abbrev inB0 (c : Dev nD) : S1x128.Idx → EReal := V c (Pipeline.arrRef spec0 2)
abbrev inD0 (c : Dev nD) : S100000x1.Idx → EReal := V c (Pipeline.arrRef spec0 3)

/-- Row `r` of the input block at point `t` is row `4000·t + r` of the input array. -/
theorem blk0_0 (c : Dev nD) (t : Fin cfg0.N) (r : Fin 4000) (k : Fin 128) (p : Fin 100000) (hp : p.val = 4000 * t.val + r.val) :
    (Gen.iblk0 V c 0 t : S4000x128.Idx → EReal) (ix2 r k) = inX0 V c (ix2 p k) := by
  obtain ⟨e0, e1, -⟩ := idx_facts0 t
  show inX0 V c (((cfg0.win 0).blk t).view.emb (ix2 r k)) = inX0 V c (ix2 p k)
  refine congrArg (inX0 V c) (funext fun a => Fin.ext ?_)
  match a with
  | ⟨0, _⟩ => show win0_0.index t (0 : Fin 2) * 4000 + 1 * r.val = p.val; omega
  | ⟨1, _⟩ => show win0_0.index t (1 : Fin 2) * 128 + 1 * k.val = k.val; omega

/-- The weight window's block is the whole weight matrix at every point. -/
theorem blk0_1 (c : Dev nD) (t : Fin cfg0.N) (k : Fin 128) (q : Fin 128) :
    (Gen.iblk0 V c 1 t : S128x128.Idx → EReal) (ix2 k q) = inW0 V c (ix2 k q) := by
  obtain ⟨-, -, e0, e1, -⟩ := idx_facts0 t
  show inW0 V c (((cfg0.win 1).blk t).view.emb (ix2 k q)) = inW0 V c (ix2 k q)
  refine congrArg (inW0 V c) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's block is the whole bias row at every point. -/
theorem blk0_2 (c : Dev nD) (t : Fin cfg0.N) (q : Fin 128) :
    (Gen.iblk0 V c 2 t : S1x128.Idx → EReal) (ix2 (0 : Fin 1) q) = inB0 V c (ix2 (0 : Fin 1) q) := by
  obtain ⟨-, -, -, -, e0, e1, -⟩ := idx_facts0 t
  show inB0 V c (((cfg0.win 2).blk t).view.emb (ix2 (0 : Fin 1) q)) = inB0 V c (ix2 (0 : Fin 1) q)
  refine congrArg (inB0 V c) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Row `r` of the scale block at point `t` is row `4000·t + r` of the scale column. -/
theorem blk0_3 (c : Dev nD) (t : Fin cfg0.N) (r : Fin 4000) (p : Fin 100000) (hp : p.val = 4000 * t.val + r.val) :
    (Gen.iblk0 V c 3 t : S4000x1.Idx → EReal) (ix2 r (0 : Fin 1)) = inD0 V c (ix2 p (0 : Fin 1)) := by
  obtain ⟨-, -, -, -, -, -, e0, e1, -⟩ := idx_facts0 t
  show inD0 V c (((cfg0.win 3).blk t).view.emb (ix2 r (0 : Fin 1))) = inD0 V c (ix2 p (0 : Fin 1))
  refine congrArg (inD0 V c) (funext fun a => Fin.ext ?_)
  match a with
  | ⟨0, _⟩ => show win0_3.index t (0 : Fin 2) * 4000 + 1 * r.val = p.val; omega
  | ⟨1, _⟩ => show win0_3.index t (1 : Fin 2) * 1 + 1 * 0 = 0; omega

/-- What grid point `t` writes back is block `t` of the scaled affine map of the whole input arrays: the body's
    value at `(r, q)` reads row `r` of its input and scale blocks, which are rows `4000·t + r` of the arrays, and that is
    the row of the output array the entry is written to. -/
theorem flushed0 (c : Dev nD) (t : Fin cfg0.N) :
    (Gen.dat0 (F := Ideal) V c).flushed 4 t
      = ((cfg0.win 4).blk t).view.read (Elt Ideal) (scaledAffine (inX0 V c) (inW0 V c) (inB0 V c) (inD0 V c)) := by
  have hN : grid0.N = 25 := Gen.N_0
  show (cfg0.win 4).cut (grid0.coords t) ((Gen.dat0 (F := Ideal) V c).after 4 t) = _
  rw [Gen.after0_4]
  unfold Gen.out0_4
  rw [View.canon_unit_zero offsets_zero]
  simp only [View.ld_unit_zero (S := S4000x128) offsets_zero, View.ld_unit_zero (S := S128x128) offsets_zero,
    View.ld_unit_zero (S := S1x128) offsets_zero, View.ld_unit_zero (S := S4000x1) offsets_zero]
  funext j
  obtain ⟨r, q, rfl⟩ : ∃ (r : Fin 4000) (q : Fin 128), j = ix2 r q := ⟨j 0, j 1, eq_ix2 j⟩
  obtain ⟨-, -, -, -, -, -, -, -, e0, e1⟩ := idx_facts0 t
  have ht : t.val < 25 := by have h : t.val < grid0.N := t.isLt; omega
  have hr : r.val < 4000 := r.isLt
  have hp : 4000 * t.val + r.val < 100000 := by omega
  have hemb : ((cfg0.win 4).blk t).view.emb (ix2 r q) = ix2 (⟨4000 * t.val + r.val, hp⟩ : Fin 100000) q := by
    funext a; apply Fin.ext
    match a with
    | ⟨0, _⟩ => show win0_4.index t (0 : Fin 2) * 4000 + 1 * r.val = 4000 * t.val + r.val; omega
    | ⟨1, _⟩ => show win0_4.index t (1 : Fin 2) * 128 + 1 * q.val = q.val; omega
  show Gen.k0_pay1 (F := Ideal) (Gen.iblk0 V c 0 t) (Gen.iblk0 V c 1 t) (Gen.iblk0 V c 2 t) (Gen.iblk0 V c 3 t) (ix2 r q)
      = scaledAffine (inX0 V c) (inW0 V c) (inB0 V c) (inD0 V c) (((cfg0.win 4).blk t).view.emb (ix2 r q))
  rw [hemb, scaledAffine_ix2]
  refine (pay0_apply (Gen.iblk0 V c 0 t) (Gen.iblk0 V c 1 t) (Gen.iblk0 V c 2 t) (Gen.iblk0 V c 3 t) r q).trans ?_
  unfold scaledAffineAt
  rw [blk0_2 V c t q, blk0_3 V c t r ⟨4000 * t.val + r.val, hp⟩ rfl]
  refine congrArg (fun s => (s + inB0 V c (ix2 (0 : Fin 1) q)) * inD0 V c (ix2 (⟨4000 * t.val + r.val, hp⟩ : Fin 100000) (0 : Fin 1))) ?_
  exact Finset.sum_congr rfl fun k _ => by rw [blk0_0 V c t r k ⟨4000 * t.val + r.val, hp⟩ rfl, blk0_1 V c t k q]

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v14).slice (win0_4.rect t)).set ↔ _
  rw [View.set_slice_whole, Rect.mem_set_unit]
  exact Iff.rfl

/-- Every row of the output array is written: row `p` by the point `p / 4000`. -/
theorem cover0 (i : S100000x128.Idx) :
    ∃ t : Fin cfg0.N, (cfg0.win 4).flush t = true ∧ i ∈ ((cfg0.win 4).blk t).view.set := by
  have hN : grid0.N = 25 := Gen.N_0
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; omega⟩, rfl⟩
  obtain ⟨-, -, -, -, -, -, -, -, e0, e1⟩ := idx_facts0 t
  refine ⟨t, Gen.flush0_4 t, ?_⟩
  rw [mem_blk0]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- Region 0's output array after its 25 points is the scaled affine map of the four input arrays. -/
theorem arrAt0 (c : Dev nD) :
    (Gen.dat0 (F := Ideal) V c).arrAt 4 cfg0.N = scaledAffine (inX0 V c) (inW0 V c) (inB0 V c) (inD0 V c) :=
  (Gen.dat0 (F := Ideal) V c).arrAt_eq_of_cover 4 (scaledAffine (inX0 V c) (inW0 V c) (inB0 V c) (inD0 V c))
    (fun t _ => flushed0 V c t) cover0

/-- Region 0's output array at `(p, q)`, from the region's four input arrays as it finds them. -/
theorem arr0 (c : Dev nD) (p : Fin 100000) (q : Fin 128) :
    ((Gen.dat0 (F := Ideal) V c).arrAt 4 cfg0.N : S100000x128.Idx → EReal) (ix2 p q)
      = ((∑ k : Fin 128, inX0 V c (ix2 p k) * inW0 V c (ix2 k q)) + inB0 V c (ix2 (0 : Fin 1) q)) * inD0 V c (ix2 p (0 : Fin 1)) :=
  congrFun (arrAt0 V c) (ix2 p q)

/-! ## Region 1 -/

/-- Where each window's block sits at grid point `t`: the row windows (input rows, scale column, output) are at
    block row `t`; the weight matrix and the bias row are their whole arrays at every point. Decided over the 25 points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The four input arrays as region 1 finds them. -/
abbrev inX1 (c : Dev nD) : S100000x128.Idx → EReal := V c (Pipeline.arrRef spec1 0)
abbrev inW1 (c : Dev nD) : S128x128.Idx → EReal := V c (Pipeline.arrRef spec1 1)
abbrev inB1 (c : Dev nD) : S1x128.Idx → EReal := V c (Pipeline.arrRef spec1 2)
abbrev inD1 (c : Dev nD) : S100000x1.Idx → EReal := V c (Pipeline.arrRef spec1 3)

/-- Row `r` of the input block at point `t` is row `4000·t + r` of the input array. -/
theorem blk1_0 (c : Dev nD) (t : Fin cfg1.N) (r : Fin 4000) (k : Fin 128) (p : Fin 100000) (hp : p.val = 4000 * t.val + r.val) :
    (Gen.iblk1 V c 0 t : S4000x128.Idx → EReal) (ix2 r k) = inX1 V c (ix2 p k) := by
  obtain ⟨e0, e1, -⟩ := idx_facts1 t
  show inX1 V c (((cfg1.win 0).blk t).view.emb (ix2 r k)) = inX1 V c (ix2 p k)
  refine congrArg (inX1 V c) (funext fun a => Fin.ext ?_)
  match a with
  | ⟨0, _⟩ => show win1_0.index t (0 : Fin 2) * 4000 + 1 * r.val = p.val; omega
  | ⟨1, _⟩ => show win1_0.index t (1 : Fin 2) * 128 + 1 * k.val = k.val; omega

/-- The weight window's block is the whole weight matrix at every point. -/
theorem blk1_1 (c : Dev nD) (t : Fin cfg1.N) (k : Fin 128) (q : Fin 128) :
    (Gen.iblk1 V c 1 t : S128x128.Idx → EReal) (ix2 k q) = inW1 V c (ix2 k q) := by
  obtain ⟨-, -, e0, e1, -⟩ := idx_facts1 t
  show inW1 V c (((cfg1.win 1).blk t).view.emb (ix2 k q)) = inW1 V c (ix2 k q)
  refine congrArg (inW1 V c) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias window's block is the whole bias row at every point. -/
theorem blk1_2 (c : Dev nD) (t : Fin cfg1.N) (q : Fin 128) :
    (Gen.iblk1 V c 2 t : S1x128.Idx → EReal) (ix2 (0 : Fin 1) q) = inB1 V c (ix2 (0 : Fin 1) q) := by
  obtain ⟨-, -, -, -, e0, e1, -⟩ := idx_facts1 t
  show inB1 V c (((cfg1.win 2).blk t).view.emb (ix2 (0 : Fin 1) q)) = inB1 V c (ix2 (0 : Fin 1) q)
  refine congrArg (inB1 V c) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Row `r` of the scale block at point `t` is row `4000·t + r` of the scale column. -/
theorem blk1_3 (c : Dev nD) (t : Fin cfg1.N) (r : Fin 4000) (p : Fin 100000) (hp : p.val = 4000 * t.val + r.val) :
    (Gen.iblk1 V c 3 t : S4000x1.Idx → EReal) (ix2 r (0 : Fin 1)) = inD1 V c (ix2 p (0 : Fin 1)) := by
  obtain ⟨-, -, -, -, -, -, e0, e1, -⟩ := idx_facts1 t
  show inD1 V c (((cfg1.win 3).blk t).view.emb (ix2 r (0 : Fin 1))) = inD1 V c (ix2 p (0 : Fin 1))
  refine congrArg (inD1 V c) (funext fun a => Fin.ext ?_)
  match a with
  | ⟨0, _⟩ => show win1_3.index t (0 : Fin 2) * 4000 + 1 * r.val = p.val; omega
  | ⟨1, _⟩ => show win1_3.index t (1 : Fin 2) * 1 + 1 * 0 = 0; omega

/-- What grid point `t` writes back is block `t` of the scaled affine map of the whole input arrays: the body's
    value at `(r, q)` reads row `r` of its input and scale blocks, which are rows `4000·t + r` of the arrays, and that is
    the row of the output array the entry is written to. -/
theorem flushed1 (c : Dev nD) (t : Fin cfg1.N) :
    (Gen.dat1 (F := Ideal) V c).flushed 4 t
      = ((cfg1.win 4).blk t).view.read (Elt Ideal) (scaledAffine (inX1 V c) (inW1 V c) (inB1 V c) (inD1 V c)) := by
  have hN : grid1.N = 25 := Gen.N_1
  show (cfg1.win 4).cut (grid1.coords t) ((Gen.dat1 (F := Ideal) V c).after 4 t) = _
  rw [Gen.after1_4]
  unfold Gen.out1_4
  rw [View.canon_unit_zero offsets_zero]
  simp only [View.ld_unit_zero (S := S4000x128) offsets_zero, View.ld_unit_zero (S := S128x128) offsets_zero,
    View.ld_unit_zero (S := S1x128) offsets_zero, View.ld_unit_zero (S := S4000x1) offsets_zero]
  funext j
  obtain ⟨r, q, rfl⟩ : ∃ (r : Fin 4000) (q : Fin 128), j = ix2 r q := ⟨j 0, j 1, eq_ix2 j⟩
  obtain ⟨-, -, -, -, -, -, -, -, e0, e1⟩ := idx_facts1 t
  have ht : t.val < 25 := by have h : t.val < grid1.N := t.isLt; omega
  have hr : r.val < 4000 := r.isLt
  have hp : 4000 * t.val + r.val < 100000 := by omega
  have hemb : ((cfg1.win 4).blk t).view.emb (ix2 r q) = ix2 (⟨4000 * t.val + r.val, hp⟩ : Fin 100000) q := by
    funext a; apply Fin.ext
    match a with
    | ⟨0, _⟩ => show win1_4.index t (0 : Fin 2) * 4000 + 1 * r.val = 4000 * t.val + r.val; omega
    | ⟨1, _⟩ => show win1_4.index t (1 : Fin 2) * 128 + 1 * q.val = q.val; omega
  show Gen.k1_pay1 (F := Ideal) (Gen.iblk1 V c 0 t) (Gen.iblk1 V c 1 t) (Gen.iblk1 V c 2 t) (Gen.iblk1 V c 3 t) (ix2 r q)
      = scaledAffine (inX1 V c) (inW1 V c) (inB1 V c) (inD1 V c) (((cfg1.win 4).blk t).view.emb (ix2 r q))
  rw [hemb, scaledAffine_ix2]
  refine (pay1_apply (Gen.iblk1 V c 0 t) (Gen.iblk1 V c 1 t) (Gen.iblk1 V c 2 t) (Gen.iblk1 V c 3 t) r q).trans ?_
  unfold scaledAffineAt
  rw [blk1_2 V c t q, blk1_3 V c t r ⟨4000 * t.val + r.val, hp⟩ rfl]
  refine congrArg (fun s => (s + inB1 V c (ix2 (0 : Fin 1) q)) * inD1 V c (ix2 (⟨4000 * t.val + r.val, hp⟩ : Fin 100000) (0 : Fin 1))) ?_
  exact Finset.sum_congr rfl fun k _ => by rw [blk1_0 V c t r k ⟨4000 * t.val + r.val, hp⟩ rfl, blk1_1 V c t k q]

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v31).slice (win1_4.rect t)).set ↔ _
  rw [View.set_slice_whole, Rect.mem_set_unit]
  exact Iff.rfl

/-- Every row of the output array is written: row `p` by the point `p / 4000`. -/
theorem cover1 (i : S100000x128.Idx) :
    ∃ t : Fin cfg1.N, (cfg1.win 4).flush t = true ∧ i ∈ ((cfg1.win 4).blk t).view.set := by
  have hN : grid1.N = 25 := Gen.N_1
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < grid1.N; omega⟩, rfl⟩
  obtain ⟨-, -, -, -, -, -, -, -, e0, e1⟩ := idx_facts1 t
  refine ⟨t, Gen.flush1_4 t, ?_⟩
  rw [mem_blk1]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- Region 1's output array after its 25 points is the scaled affine map of the four input arrays. -/
theorem arrAt1 (c : Dev nD) :
    (Gen.dat1 (F := Ideal) V c).arrAt 4 cfg1.N = scaledAffine (inX1 V c) (inW1 V c) (inB1 V c) (inD1 V c) :=
  (Gen.dat1 (F := Ideal) V c).arrAt_eq_of_cover 4 (scaledAffine (inX1 V c) (inW1 V c) (inB1 V c) (inD1 V c))
    (fun t _ => flushed1 V c t) cover1

/-- Region 1's output array at `(p, q)`, from the region's four input arrays as it finds them. -/
theorem arr1 (c : Dev nD) (p : Fin 100000) (q : Fin 128) :
    ((Gen.dat1 (F := Ideal) V c).arrAt 4 cfg1.N : S100000x128.Idx → EReal) (ix2 p q)
      = ((∑ k : Fin 128, inX1 V c (ix2 p k) * inW1 V c (ix2 k q)) + inB1 V c (ix2 (0 : Fin 1) q)) * inD1 V c (ix2 p (0 : Fin 1)) :=
  congrFun (arrAt1 V c) (ix2 p q)

end Cert.KernelIdeal.RegionValue

end
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.RegionPool.lean ====
/-
  The pooled output of the third kernel region, as one function of the array the region reads.

  The region walks the 100000 rows of a [100000, 128] array in 25 blocks of 4000 rows. Its [1, 128] output block
  never moves: at the first block it is set to zero, at every block the column sums of max(h, 0) over the block's
  4000 rows are added into it, and after the last block it is multiplied by the named constant 1/100000. Only the
  last grid point writes the block back, and the block is the whole [1, 128] result array. So column q of the result
  is (the sum over all 100000 rows r of max(h(r, q), 0)) times 1/100000. The only laws of the extended reals used
  are 0 + x = x and the commutativity and associativity of addition (to regroup 25 block sums into one sum), so no
  finiteness of the entries is needed.
-/
import proofs.«141483_j2800318677072_2_alg».proof.Proof.Gen.KernelIdeal.Frame
import proofs.«141483_j2800318677072_2_alg».proof.Proof.LibSublaneSum
import proofs.«141483_j2800318677072_2_alg».proof.Proof.LibSumBlocks
import Idealize.ShloMosaic.Lib.Pipeline.Value
import Idealize.ShloMosaic.Lib.ValueIdx
import Idealize.ShloMosaic.Lib.Tactic
import Idealize.ShloMosaic.PureOps.Ideal.Laws
import Idealize.ShloMosaic.PureOps.IdealRules

noncomputable section

open Idealize.ShloMosaic Idealize.ShloMosaic.TcCoe Idealize.SL.Sem
open Idealize.ShloMosaic.Pipeline (Dat)
open Idealize.ShloMosaic.ValueIdx

namespace Cert.KernelIdeal.PoolValue

open Cert.KernelIdeal Cert.KernelIdeal.Gen

/-! ## What each control case leaves in the output block, as payload terms (any float instance) -/

section Pieces

variable {F : FTy → Type} [FloatOps F] [Named F]

/-- The zero offsets of an access to a whole staging buffer, as the constant function. -/
theorem hz : (![0, 0] : Fin 2 → Nat) = fun _ => 0 := funext fun a => by fin_cases a <;> rfl

/-- A middle grid point (neither first nor last): the block holding `xo` ends holding `xo` plus the column sums of
    the clamped input block `x` — the body's one covering store, whose loads read the whole buffers. -/
theorem out_B (c : Dev nD) (i : grid2.Coords) (a1 : Memref sig .tc .vmem S4000x128 .f32) (h1 : a1.IsWhole)
    (a2 : Memref sig .tc .vmem S1x128 .f32) (h2 : a2.IsWhole) (hc0 : ¬cond2_0 i) (hc1 : ¬cond2_1 i)
    (x : Vec F S4000x128 .f32) (xo : Vec F S1x128 .f32) :
    out2_B_1 c i a1 h1 a2 h2 hc0 hc1 x xo = k2_pay2 xo x := by
  unfold out2_B_1
  rw [View.read_writes_eq_canon _ _ _ (cover2_B_1 c i a1 h1 a2 h2 hc0 hc1 x xo)]
  unfold kernelRun2_B
  dsimp only
  rw [View.canon_unit_zero hz]
  simp only [View.readAt_eq_ld, h1.read_unread, h2.read_unread, View.ld_unit_zero (S := S4000x128) hz,
    View.ld_unit_zero (S := S1x128) hz]

/-- The first grid point: the block is set to the zero block, read back, and ends holding zero plus the column sums
    of the clamped input block. -/
theorem out_A (c : Dev nD) (i : grid2.Coords) (a1 : Memref sig .tc .vmem S4000x128 .f32) (h1 : a1.IsWhole)
    (a2 : Memref sig .tc .vmem S1x128 .f32) (h2 : a2.IsWhole) (hc0 : cond2_0 i) (hc1 : ¬cond2_1 i)
    (x : Vec F S4000x128 .f32) :
    out2_A_1 c i a1 h1 a2 h2 hc0 hc1 x = k2_pay2 (k2_pay1 (F := F)) x := by
  unfold out2_A_1
  rw [View.read_writes_eq_canon _ _ _ (cover2_A_1 c i a1 h1 a2 h2 hc0 hc1 x)]
  unfold kernelRun2_A
  dsimp only
  sl_unfold_words
  rw [View.canon_cons_unit_zero (S := S1x128) hz, View.readCov_unit_zero (S := S1x128) _ hz]
  simp only [View.readAt_eq_ld, h1.read_unread, View.ld_unit_zero (S := S4000x128) hz]

/-- The last grid point: the running total plus this block's column sums is stored, read back, and scaled. -/
theorem out_C (c : Dev nD) (i : grid2.Coords) (a1 : Memref sig .tc .vmem S4000x128 .f32) (h1 : a1.IsWhole)
    (a2 : Memref sig .tc .vmem S1x128 .f32) (h2 : a2.IsWhole) (hc0 : ¬cond2_0 i) (hc1 : cond2_1 i)
    (x : Vec F S4000x128 .f32) (xo : Vec F S1x128 .f32) :
    out2_C_1 c i a1 h1 a2 h2 hc0 hc1 x xo = k2_pay3 (k2_pay2 xo x) := by
  unfold out2_C_1
  rw [View.read_writes_eq_canon _ _ _ (cover2_C_1 c i a1 h1 a2 h2 hc0 hc1 x xo)]
  unfold kernelRun2_C
  dsimp only
  sl_unfold_words
  rw [View.canon_cons_unit_zero (S := S1x128) hz, View.readCov_unit_zero (S := S1x128) _ hz]
  simp only [View.readAt_eq_ld, h1.read_unread, h2.read_unread, View.ld_unit_zero (S := S4000x128) hz,
    View.ld_unit_zero (S := S1x128) hz]

end Pieces

/-! ## The payloads read at column `q`, on the extended reals -/

/-- The named constant is the rational 1/100000. -/
theorem inv_const :
    Named.named (F := Ideal) κ "inv_100000" (φ := .f32) 0x3727C5AC#32 = ((1 / 100000 : ℝ) : EReal) :=
  IdealRules.named_const.ideal_named_scalar _ _ _ _ rfl

/-- The reset block is zero in every column. -/
theorem pay1_apply (q : Fin 128) : k2_pay1 (F := Ideal) (ix2 0 q) = 0 :=
  Ideal.ofBits_zero_f32

/-- The accumulation step at column `q`: the carried entry plus the sum over the block's 4000 rows of max(·, 0). -/
theorem pay2_apply (v3 : FVec Ideal S1x128 .f32) (v5 : FVec Ideal S4000x128 .f32) (q : Fin 128) :
    k2_pay2 (F := Ideal) v3 v5 (ix2 0 q) = v3 (ix2 0 q) + ∑ k : Fin 4000, max (v5 (ix2 k q)) 0 := by
  unfold k2_pay2
  refine (addf_apply _ _ (ix2 0 q)).trans ?_
  refine congrArg₂ (· + ·) ?_ ?_
  · exact congrFun (shapeCast_self v3 _) _
  · refine (shapeCast_apply _ shapeCasts_S128_S1x128 (ix2 0 q) (ix1 q) ?_).trans ?_
    · rw [Shape.rowMajor_val_one, Shape.rowMajor_val_two]
      show q.val = 0 * 128 + q.val
      omega
    · refine (SublaneSum.rowSum_apply (a := 4000) (b := 128) _ reduces_S4000x128_S128 (.inl rfl) rfl q).trans ?_
      refine Finset.sum_congr rfl fun k _ => ?_
      refine (maximumf_apply _ _ (ix2 k q)).trans ?_
      refine congrArg₂ max ?_ ?_
      · exact congrFun (shapeCast_self v5 _) _
      · exact Ideal.ofBits_zero_f32

/-- The final scaling at column `q`: the entry times 1/100000. -/
theorem pay3_apply (v16 : FVec Ideal S1x128 .f32) (q : Fin 128) :
    k2_pay3 (F := Ideal) v16 (ix2 0 q) = v16 (ix2 0 q) * ((1 / 100000 : ℝ) : EReal) := by
  unfold k2_pay3
  refine (mulf_apply _ _ (ix2 0 q)).trans ?_
  refine congrArg₂ (· * ·) ?_ ?_
  · exact congrFun (shapeCast_self v16 _) _
  · exact inv_const

/-! ## The run over the 25 grid points, at an arbitrary entry state `V` of the region -/

section Run

variable (V : (c : Dev nD) → (b : Ref sig .tc) → Buf (Elt Ideal) ((c : Thread nD τ).loc b))

/-- The [100000, 128] array the region reads, as the region finds it: an extended real per (row, column). -/
abbrev inArr (c : Dev nD) : S100000x128.Idx → EReal := V c (Pipeline.arrRef spec2 0)

/-- The input window's block at grid point `t`, as a [4000, 128] vector of extended reals. -/
abbrev inBlk (c : Dev nD) (t : Fin cfg2.N) : FVec Ideal S4000x128 .f32 := iblk2 (F := Ideal) V c 0 t

/-- The input window's block index at grid point `t` is `(t, 0)`: block `t` of 4000 rows, all 128 columns. -/
theorem idx_in : ∀ t : Fin cfg2.N, win2_0.index t 0 = t.val ∧ win2_0.index t 1 = 0 :=
  (by decide +kernel : ∀ t : Fin grid2.N, win2_0.index t 0 = t.val ∧ win2_0.index t 1 = 0)

/-- Entry `(k, q)` of the input block at grid point `t` is entry `(4000·t + k, q)` of the array the region reads:
    a block's coordinate is block index × block size + the coordinate inside the block. -/
theorem iblk_apply (c : Dev nD) (t : Fin cfg2.N) (k : Fin 4000) (q : Fin 128) (hr : 4000 * t.val + k.val < 100000) :
    inBlk V c t (ix2 k q)
      = inArr V c (ix2 ⟨4000 * t.val + k.val, hr⟩ q) := by
  have hi := idx_in t
  unfold inBlk inArr iblk2
  rw [View.read_apply]
  show V c (Pipeline.arrRef spec2 0) _ = V c (Pipeline.arrRef spec2 0) _
  congr 1
  funext a
  apply Fin.ext
  match a with
  | ⟨0, _⟩ => show win2_0.index t 0 * 4000 + 1 * k.val = 4000 * t.val + k.val; rw [hi.1]; omega
  | ⟨1, _⟩ => show win2_0.index t 1 * 128 + 1 * q.val = q.val; rw [hi.2]; omega

/-- Column `q`'s clamped entry of row number `e`: max(h(e, q), 0) (zero for a row number past the array, which no
    block meets). -/
def relu (c : Dev nD) (q : Fin 128) (e : ℕ) : EReal :=
  if h : e < 100000 then max (inArr V c (ix2 ⟨e, h⟩ q)) 0 else 0

/-- The column sum over the block of grid point `t` is the sum of the clamped entries of rows 4000·t … 4000·t + 3999. -/
theorem blockSum (c : Dev nD) (t : Fin cfg2.N) (q : Fin 128) :
    ∑ k : Fin 4000, max (inBlk V c t (ix2 k q)) 0
      = ∑ k : Fin 4000, relu V c q (4000 * t.val + k.val) := by
  have hN : t.val < 25 := lt_of_lt_of_eq t.isLt (show cfg2.N = 25 from N_2)
  refine Finset.sum_congr rfl fun k _ => ?_
  have hr : 4000 * t.val + k.val < 100000 := by have := k.isLt; omega
  rw [relu, dif_pos hr, iblk_apply V c t k q hr]

/-- After the first grid point the block holds that point's column sums. -/
theorem step_A (c : Dev nD) (t : Fin cfg2.N) (h0 : t.val % 25 = 0) (h1 : ¬t.val % 25 = 24) (q : Fin 128) :
    outsAt2 (F := Ideal) V c t.val t.isLt (ix2 0 q) = ∑ k : Fin 4000, relu V c q (4000 * t.val + k.val) := by
  rw [outsAt2_A V c t h0 h1]
  refine (congrFun (out_A (F := Ideal) c (grid2.coords t) (ms2_0 t) (hs2_0 t) (ms2_1 t) (hs2_1 t)
    ((hcond2_0 t).mpr h0) (fun h => h1 ((hcond2_1 t).mp h)) (iblk2 V c 0 t)) (ix2 0 q)).trans ?_
  refine (pay2_apply (k2_pay1 (F := Ideal)) (inBlk V c t) q).trans ?_
  rw [pay1_apply, zero_add, blockSum V c t q]

/-- After a middle grid point the block holds what the point before left plus this point's column sums. -/
theorem step_B (c : Dev nD) (t : Fin cfg2.N) (h0 : ¬t.val % 25 = 0) (h1 : ¬t.val % 25 = 24) (q : Fin 128) :
    outsAt2 (F := Ideal) V c t.val t.isLt (ix2 0 q)
      = outsAt2 (F := Ideal) V c (t.val - 1) (Nat.lt_of_le_of_lt (Nat.sub_le _ _) t.isLt) (ix2 0 q)
        + ∑ k : Fin 4000, relu V c q (4000 * t.val + k.val) := by
  rw [outsAt2_B V c t h0 h1]
  refine (congrFun (out_B (F := Ideal) c (grid2.coords t) (ms2_0 t) (hs2_0 t) (ms2_1 t) (hs2_1 t)
    (fun h => h0 ((hcond2_0 t).mp h)) (fun h => h1 ((hcond2_1 t).mp h)) (iblk2 V c 0 t)
    (outsAt2 V c (t.val - 1) (Nat.lt_of_le_of_lt (Nat.sub_le _ _) t.isLt))) (ix2 0 q)).trans ?_
  refine (pay2_apply (outsAt2 V c (t.val - 1) (Nat.lt_of_le_of_lt (Nat.sub_le _ _) t.isLt)) (inBlk V c t) q).trans ?_
  rw [blockSum V c t q]

/-- After the last grid point the block holds that total, scaled by 1/100000. -/
theorem step_C (c : Dev nD) (t : Fin cfg2.N) (h0 : ¬t.val % 25 = 0) (h1 : t.val % 25 = 24) (q : Fin 128) :
    outsAt2 (F := Ideal) V c t.val t.isLt (ix2 0 q)
      = (outsAt2 (F := Ideal) V c (t.val - 1) (Nat.lt_of_le_of_lt (Nat.sub_le _ _) t.isLt) (ix2 0 q)
        + ∑ k : Fin 4000, relu V c q (4000 * t.val + k.val)) * ((1 / 100000 : ℝ) : EReal) := by
  rw [outsAt2_C V c t h0 h1]
  refine (congrFun (out_C (F := Ideal) c (grid2.coords t) (ms2_0 t) (hs2_0 t) (ms2_1 t) (hs2_1 t)
    (fun h => h0 ((hcond2_0 t).mp h)) ((hcond2_1 t).mpr h1) (iblk2 V c 0 t)
    (outsAt2 V c (t.val - 1) (Nat.lt_of_le_of_lt (Nat.sub_le _ _) t.isLt))) (ix2 0 q)).trans ?_
  refine (pay3_apply _ q).trans ?_
  refine congrArg (· * ((1 / 100000 : ℝ) : EReal)) ?_
  refine (pay2_apply (outsAt2 V c (t.val - 1) (Nat.lt_of_le_of_lt (Nat.sub_le _ _) t.isLt)) (inBlk V c t) q).trans ?_
  rw [blockSum V c t q]

/-- THE RUNNING TOTAL. After grid point `n` (before the last) column `q` of the block is the sum over the blocks
    `j ≤ n` of their column sums — by induction on the point. -/
theorem running (c : Dev nD) (q : Fin 128) : ∀ (n : ℕ) (hn : n < cfg2.N), n < 24 →
    outsAt2 (F := Ideal) V c n hn (ix2 0 q)
      = ∑ j ∈ Finset.range (n + 1), ∑ k : Fin 4000, relu V c q (4000 * j + k.val)
  | 0, hn, _ => by
    rw [Finset.sum_range_one]
    exact step_A V c ⟨0, hn⟩ rfl (by show ¬0 % 25 = 24; decide) q
  | n + 1, hn, h24 => by
    have h0 : ¬(⟨n + 1, hn⟩ : Fin cfg2.N).val % 25 = 0 := by dsimp only; omega
    have h1 : ¬(⟨n + 1, hn⟩ : Fin cfg2.N).val % 25 = 24 := by dsimp only; omega
    rw [Finset.sum_range_succ, ← running c q n (Nat.lt_of_succ_lt hn) (by omega)]
    exact step_B V c ⟨n + 1, hn⟩ h0 h1 q

/-- After the last grid point: the sum over all 25 blocks, scaled. -/
theorem total (c : Dev nD) (q : Fin 128) (h : 24 < cfg2.N) :
    outsAt2 (F := Ideal) V c 24 h (ix2 0 q)
      = (∑ j ∈ Finset.range 25, ∑ k : Fin 4000, relu V c q (4000 * j + k.val)) * ((1 / 100000 : ℝ) : EReal) := by
  have h0 : ¬(⟨24, h⟩ : Fin cfg2.N).val % 25 = 0 := by show ¬24 % 25 = 0; decide
  have h1 : (⟨24, h⟩ : Fin cfg2.N).val % 25 = 24 := rfl
  rw [Finset.sum_range_succ, ← running V c q 23 (Nat.lt_of_succ_lt h) (by decide)]
  exact step_C V c ⟨24, h⟩ h0 h1 q

/-- The 25 block sums of 4000 rows are one sum over the 100000 rows (addition on the extended reals is commutative
    and associative: no finiteness is used). -/
theorem regroup (c : Dev nD) (q : Fin 128) :
    ∑ j ∈ Finset.range 25, ∑ k : Fin 4000, relu V c q (4000 * j + k.val)
      = ∑ r : Fin 100000, max (inArr V c (ix2 r q)) 0 := by
  rw [← Fin.sum_univ_eq_sum_range (fun j => ∑ k : Fin 4000, relu V c q (4000 * j + k.val)) 25,
    ← SumBlocks.sum_mul_eq_sum_blocks 25 4000 (relu V c q)]
  show ∑ e : Fin 100000, relu V c q e.val = _
  refine Finset.sum_congr rfl fun r _ => ?_
  rw [relu, dif_pos r.isLt]

/-! ## The result array: the one write-back, after the last point, writes the whole [1, 128] array -/

/-- The last grid point. -/
abbrev tLast : Fin cfg2.N := ⟨24, by rw [show cfg2.N = 25 from N_2]; decide⟩

/-- What the result array ends holding: the output block after the last point. -/
abbrev result (c : Dev nD) : Buf (Elt Ideal) ((c : Thread nD τ).loc main_v45) := outsAt2 (F := Ideal) V c 24 tLast.isLt

/-- The output window's block index is `(0, 0)` at every grid point: its offsets in the array are zero. -/
theorem idx_out : ∀ t : Fin cfg2.N, ∀ a : Fin 2, win2_1.index t a * S1x128.size a = 0 :=
  (by decide +kernel : ∀ t : Fin grid2.N, ∀ a : Fin 2, win2_1.index t a * S1x128.size a = 0)

/-- The one write-back, at the last point, writes the block: block (0, 0) of the [1, 128] array read through zero
    offsets is the array. -/
theorem flushed_eq (c : Dev nD) (t : Fin cfg2.N) (hf : (cfg2.win 1).flush t = true) :
    (dat2 (F := Ideal) V c).flushed 1 t = ((cfg2.win 1).blk t).view.read (Elt Ideal) (result V c) := by
  have hN : cfg2.N = 25 := N_2
  have h24 : t.val = 24 := by have := (flush2_1 t).mp hf; have := t.isLt; omega
  obtain rfl : t = tLast := Fin.ext h24
  show (cfg2.win 1).cut (grid2.coords tLast) ((dat2 (F := Ideal) V c).after 1 tLast) = _
  rw [after2_1]
  have hz' : (fun a => win2_1.index tLast a * main_v45.ty.shape.size a) = fun _ => 0 := funext fun a => idx_out tLast a
  exact (Memref.read_access_unit_zero (Elt Ideal) main_v45 hz' (fun a => by rw [congrFun hz' a]; simp) (result V c)).symm

/-- So the result array ends holding the block after the last point: that point's block covers the array. -/
theorem final_o (c : Dev nD) : (dat2 (F := Ideal) V c).arrAt 1 cfg2.N = result V c :=
  (dat2 (F := Ideal) V c).arrAt_eq_of_cover 1 (result V c) (flushed_eq V c) fun i =>
    ⟨tLast, (flush2_1 tLast).mpr rfl, by
      show i ∈ ((View.whole main_v45).slice (win2_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win2_1.index tLast 0 * win2_1.size 0 ≤ (i 0 : Nat) ∧ (i 0 : Nat) < win2_1.index tLast 0 * win2_1.size 0 + win2_1.xsize (grid2.coords tLast) 0
                  rw [show win2_1.index tLast 0 * win2_1.size 0 = 0 from by decide +kernel, show win2_1.xsize (grid2.coords tLast) 0 = 1 from by decide +kernel]; omega
      | ⟨1, _⟩ => show win2_1.index tLast 1 * win2_1.size 1 ≤ (i 1 : Nat) ∧ (i 1 : Nat) < win2_1.index tLast 1 * win2_1.size 1 + win2_1.xsize (grid2.coords tLast) 1
                  rw [show win2_1.index tLast 1 * win2_1.size 1 = 0 from by decide +kernel, show win2_1.xsize (grid2.coords tLast) 1 = 128 from by decide +kernel]; omega⟩

/-- THE REGION'S OUTPUT. After all 25 grid points column `q` of the [1, 128] result array is the sum over all
    100000 rows `r` of max(h(r, q), 0), times 1/100000, where `h` is the [100000, 128] array as the region finds it. -/
theorem arr2 (c : Dev nD) (q : Fin 128) :
    ((Gen.dat2 (F := Ideal) V c).arrAt 1 cfg2.N (ValueIdx.ix2 0 q) : EReal)
      = (∑ r : Fin 100000, max (inArr V c (ValueIdx.ix2 r q)) 0)
        * ((1 / 100000 : ℝ) : EReal) := by
  refine (congrFun (final_o V c) (ix2 0 q)).trans ?_
  refine (total V c q tLast.isLt).trans ?_
  rw [regroup V c q]

end Run

end Cert.KernelIdeal.PoolValue

end
-- ==== Proof.GcnTerms.lean ====
/-
  The two arrangements of one graph-convolution aggregation as array terms, at the extended reals.

  `aggK Y row col dinv`: the rows of `Y : [100000, 128]` gathered at the edges' sources (`row`, negative indices
  wrapped, then clamped by the gather), added into the rows the edges' targets (`col`) name, and row `n` of the sum
  scaled by `dinv n`. `reluK`: the maximum with zero. `convR Y' E`: the rows of `Y'` gathered at the sources of the
  edge array `E`, the row of edge `e` scaled by the product of the normalisers of its two ends, added into the targets'
  rows; the index and normaliser arrays it uses are the reference program's own stages of `E`.
-/
import proofs.«141483_j2800318677072_2_alg».proof.Proof.Gen.KernelIdeal
import proofs.«141483_j2800318677072_2_alg».proof.Proof.Gen.ReferenceIdeal.Read

noncomputable section

namespace Cert.Gcn

open Idealize.ShloMosaic

/-- Gather the source rows, add them into the target rows, scale each target row by its normaliser. -/
def aggK (Y : FVec Ideal Cert.KernelIdeal.S100000x128 .f32) (row col : IVec Cert.KernelIdeal.S1700000 32)
    (dinv : FVec Ideal Cert.KernelIdeal.S100000 .f32) : FVec Ideal Cert.KernelIdeal.S100000x128 .f32 :=
  open Cert.KernelIdeal Cert.KernelIdeal.Gen in
  mulf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 col)
      (Host.gather gather_S100000x128_S1700000x1_S1700000x128_1_0_n_n_0_1_1128 Y
        (broadcastInDim S1700000x1 ![0] bcast_S1700000_S1700000x1_0
          (select
            (cmpi .slt row (broadcastInDim S1700000 ![] bcast_S_S1700000 (constantI S_ 32 0#32)))
            (addi row (broadcastInDim S1700000 ![] bcast_S_S1700000 (constantI S_ 32 100000#32)))
            row))))
    (broadcastInDim S100000x128 ![0, 1] bcast_S100000x1_S100000x128_0_1
      (broadcastInDim S100000x1 ![0] bcast_S100000_S100000x1_0 dinv))

/-- The maximum with zero, entry by entry. -/
def reluK (Z : FVec Ideal Cert.KernelIdeal.S100000x128 .f32) : FVec Ideal Cert.KernelIdeal.S100000x128 .f32 :=
  open Cert.KernelIdeal Cert.KernelIdeal.Gen in
  maximumf Z (broadcastInDim S100000x128 ![] bcast_S_S100000x128 (constant S_ .f32 0x00000000#32))

/-- Gather the source rows, scale the row of each edge by the two ends' normalisers, add into the target rows. -/
def convR (Y' : FVec Ideal Cert.ReferenceIdeal.S100000x128 .f32) (E : IVec Cert.ReferenceIdeal.S2x1600000 32) :
    FVec Ideal Cert.ReferenceIdeal.S100000x128 .f32 :=
  open Cert.ReferenceIdeal Cert.ReferenceIdeal.Gen Cert.ReferenceIdeal.Read in
  Host.scatterAdd scatter_S100000x128_S1700000x1_S1700000x128_1_0_0_1 (val_main_v41 (F := Ideal)) (val_main_v42 (F := Ideal) E)
    (mulf (Host.gather gather_S100000x128_S1700000x1_S1700000x128_1_0_n_n_0_1_1128 Y' (val_main_v36 (F := Ideal) E))
      (val_main_v39 (F := Ideal) E))

end Cert.Gcn

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KernelValue.lean ====
/-
  The idealized kernel program, read from its launch memory up to the second layer's output.

  The program alternates stretches of host operations with kernel regions; the contents of its buffers at each
  boundary are a fold from the launch memory (a stretch applies its operations, a region leaves its arrays at what
  its write-backs make them and every other buffer alone). The fold is read here at the buffers that carry the value:

    first layer    YS1 (p, q)  = ((∑ k, X (p, k) · W₁ (k, q)) + b₁ (q)) · dinv (p)
    hidden         hid1        = max (agg YS1, 0)
    second layer   YS2 (p, q)  = ((∑ k, hid1 (p, k) · W₂ (k, q)) + b₂ (q)) · dinv (p)

  where `X`, `W₁`, `b₁`, `W₂`, `b₂` are the program's float arguments as launched, `dinv` is the normaliser vector the
  first stretch computes from the edge list, and `agg` gathers the rows at the edges' sources, adds them into the rows
  the edges' targets name and scales row `n` by `dinv n`. The edge index arrays and `dinv` are carried as atoms: nothing
  here looks inside them. Each stretch is read once, over arbitrary contents before it, at the few buffers the next
  step needs; a bias vector viewed as a [1, 128] row is read at `(0, q)`, the normalisers viewed as a [100000, 1]
  column at `(p, 0)`. No law of the extended reals is used beyond what the two layers' own readings use.
-/
import proofs.«141483_j2800318677072_2_alg».proof.Proof.KernelRun
import proofs.«141483_j2800318677072_2_alg».proof.Proof.RegionLinear
import proofs.«141483_j2800318677072_2_alg».proof.Proof.RegionPool
import proofs.«141483_j2800318677072_2_alg».proof.Proof.GcnTerms
import proofs.«141483_j2800318677072_2_alg».proof.Proof.LibHostRead
import proofs.«141483_j2800318677072_2_alg».proof.Proof.LibKeepdims
import Idealize.ShloMosaic.Lib.StableHlo.Run
import Idealize.ShloMosaic.Lib.ValueIdx
import Idealize.ShloMosaic.Lib.ValueLayout

set_option maxRecDepth 16384

noncomputable section

namespace Cert.KernelIdeal.HostValue

open Cert.KernelIdeal Idealize.ShloMosaic Idealize.ShloMosaic.TcCoe Idealize.SL.Sem Idealize.ShloMosaic.StableHlo
open Idealize.ShloMosaic.ValueIdx Cert.HostRead
open scoped BigOperators

/-! ## Each stretch of host operations, read at the buffers the later steps need, from arbitrary contents `U` before it

Stated over a variable `U`, so that reading a stretch never opens the contents it starts from. -/

section Stretches

variable (U : Valuation τ sig (Elt Ideal))

/-! ### Before the first layer: edge indices, normalisers, the bias row and the scale column -/

/-- The first stretch leaves the argument arrays alone. -/
theorem s0_arg0 : after Gen.hostOps0 U (Proc.devRef .tc main_arg0) = U (Proc.devRef .tc main_arg0) := by after_results
theorem s0_arg2 : after Gen.hostOps0 U (Proc.devRef .tc main_arg2) = U (Proc.devRef .tc main_arg2) := by after_results
theorem s0_arg4 : after Gen.hostOps0 U (Proc.devRef .tc main_arg4) = U (Proc.devRef .tc main_arg4) := by after_results
theorem s0_arg5 : after Gen.hostOps0 U (Proc.devRef .tc main_arg5) = U (Proc.devRef .tc main_arg5) := by after_results

/-- Its bias row is the first layer's bias vector viewed as one row. -/
theorem s0_v12 : after Gen.hostOps0 U (Proc.devRef .tc main_v12)
    = fun i => shapeCast S1x128 (U (Proc.devRef .tc main_arg3)) Gen.shapeCasts_S128_S1x128 i := by
  after_results
  rfl

/-- Its scale column is the normaliser vector it computes, viewed as one column. -/
theorem s0_v13 : after Gen.hostOps0 U (Proc.devRef .tc main_v13)
    = fun i => shapeCast S100000x1 (after Gen.hostOps0 U (Proc.devRef .tc main_v11)) Gen.shapeCasts_S100000_S100000x1 i := by
  after_results
  rfl

/-! ### Between the layers: the aggregation over the edges, the maximum with zero, the second bias row and scale column -/

/-- The aggregation stretch writes the aggregate of the first layer's output over the edges. -/
theorem s1_v27 : after Gen.hostOps1 U (Proc.devRef .tc main_v27)
    = Cert.Gcn.aggK (U (Proc.devRef .tc main_v14)) (U (Proc.devRef .tc main_v3)) (U (Proc.devRef .tc main_v6))
        (U (Proc.devRef .tc main_v11)) := by
  after_results_simp
  rfl
/-- It leaves the edge indices, the normalisers and the second layer's arguments alone. -/
theorem s1_v3 : after Gen.hostOps1 U (Proc.devRef .tc main_v3) = U (Proc.devRef .tc main_v3) := by after_results
theorem s1_v6 : after Gen.hostOps1 U (Proc.devRef .tc main_v6) = U (Proc.devRef .tc main_v6) := by after_results
theorem s1_v11 : after Gen.hostOps1 U (Proc.devRef .tc main_v11) = U (Proc.devRef .tc main_v11) := by after_results
theorem s1_arg4 : after Gen.hostOps1 U (Proc.devRef .tc main_arg4) = U (Proc.devRef .tc main_arg4) := by after_results
theorem s1_arg5 : after Gen.hostOps1 U (Proc.devRef .tc main_arg5) = U (Proc.devRef .tc main_arg5) := by after_results

/-- The next stretch takes the maximum of that aggregate with zero. -/
theorem s11_v28 : after Gen.hostOps1_1 U (Proc.devRef .tc main_v28) = Cert.Gcn.reluK (U (Proc.devRef .tc main_v27)) := by
  read_results
  rfl
theorem s11_v3 : after Gen.hostOps1_1 U (Proc.devRef .tc main_v3) = U (Proc.devRef .tc main_v3) := by read_results
theorem s11_v6 : after Gen.hostOps1_1 U (Proc.devRef .tc main_v6) = U (Proc.devRef .tc main_v6) := by read_results
theorem s11_v11 : after Gen.hostOps1_1 U (Proc.devRef .tc main_v11) = U (Proc.devRef .tc main_v11) := by read_results
theorem s11_arg4 : after Gen.hostOps1_1 U (Proc.devRef .tc main_arg4) = U (Proc.devRef .tc main_arg4) := by read_results
theorem s11_arg5 : after Gen.hostOps1_1 U (Proc.devRef .tc main_arg5) = U (Proc.devRef .tc main_arg5) := by read_results

/-- The last stretch before the second layer views its bias vector as one row and the normalisers as one column. -/
theorem s12_v29 : after Gen.hostOps1_2 U (Proc.devRef .tc main_v29)
    = fun i => shapeCast S1x128 (U (Proc.devRef .tc main_arg5)) Gen.shapeCasts_S128_S1x128 i := by
  after_results
  rfl
theorem s12_v30 : after Gen.hostOps1_2 U (Proc.devRef .tc main_v30)
    = fun i => shapeCast S100000x1 (U (Proc.devRef .tc main_v11)) Gen.shapeCasts_S100000_S100000x1 i := by
  after_results
  rfl
theorem s12_v28 : after Gen.hostOps1_2 U (Proc.devRef .tc main_v28) = U (Proc.devRef .tc main_v28) := by after_results
theorem s12_v3 : after Gen.hostOps1_2 U (Proc.devRef .tc main_v3) = U (Proc.devRef .tc main_v3) := by after_results
theorem s12_v6 : after Gen.hostOps1_2 U (Proc.devRef .tc main_v6) = U (Proc.devRef .tc main_v6) := by after_results
theorem s12_v11 : after Gen.hostOps1_2 U (Proc.devRef .tc main_v11) = U (Proc.devRef .tc main_v11) := by after_results
theorem s12_arg4 : after Gen.hostOps1_2 U (Proc.devRef .tc main_arg4) = U (Proc.devRef .tc main_arg4) := by after_results

end Stretches

/-! ## The boundaries of the run and the atoms the result is written over -/

section Run

variable (m : (ℓ : Loc nD τ sig) → Buf (Elt Ideal) ℓ) (ρ : Dev nD → PrngReg) (c : Dev nD)

/-- The edges' source and target index arrays and the normaliser vector, as the first stretch computes them. -/
abbrev rowA : IVec S1700000 32 := Gen.W1 (F := Ideal) m ρ c (Proc.devRef .tc main_v3)
abbrev colA : IVec S1700000 32 := Gen.W1 (F := Ideal) m ρ c (Proc.devRef .tc main_v6)
abbrev dinvA : FVec Ideal S100000 .f32 := Gen.W1 (F := Ideal) m ρ c (Proc.devRef .tc main_v11)
/-- The first layer's output, the hidden features the second layer reads, and the second layer's output. -/
abbrev YS1 : FVec Ideal S100000x128 .f32 := Gen.W2 (F := Ideal) m ρ c (Proc.devRef .tc main_v14)
abbrev hid1 : FVec Ideal S100000x128 .f32 := Gen.W5 (F := Ideal) m ρ c (Proc.devRef .tc main_v28)
abbrev YS2 : FVec Ideal S100000x128 .f32 := Gen.W6 (F := Ideal) m ρ c (Proc.devRef .tc main_v31)
/-- The program's float arguments at launch: the features, and each layer's weight matrix and bias vector. -/
abbrev argX : S100000x128.Idx → EReal := m ((c.tc : Thread nD τ).loc main_arg0)
abbrev argW1 : S128x128.Idx → EReal := m ((c.tc : Thread nD τ).loc main_arg2)
abbrev argb1 : S128.Idx → EReal := m ((c.tc : Thread nD τ).loc main_arg3)
abbrev argW2 : S128x128.Idx → EReal := m ((c.tc : Thread nD τ).loc main_arg4)
abbrev argb2 : S128.Idx → EReal := m ((c.tc : Thread nD τ).loc main_arg5)

/-! ### What the first layer finds -/

theorem W1_arg0 : Gen.W1 (F := Ideal) m ρ c (Proc.devRef .tc main_arg0) = argX m c := s0_arg0 (Gen.W0 m ρ c)
theorem W1_arg2 : Gen.W1 (F := Ideal) m ρ c (Proc.devRef .tc main_arg2) = argW1 m c := s0_arg2 (Gen.W0 m ρ c)
theorem W1_arg4 : Gen.W1 (F := Ideal) m ρ c (Proc.devRef .tc main_arg4) = argW2 m c := s0_arg4 (Gen.W0 m ρ c)
theorem W1_arg5 : Gen.W1 (F := Ideal) m ρ c (Proc.devRef .tc main_arg5) = argb2 m c := s0_arg5 (Gen.W0 m ρ c)

/-- The bias row at `(0, q)` is the bias vector at `q`. -/
theorem W1_v12_apply (q : Fin 128) :
    (Gen.W1 (F := Ideal) m ρ c (Proc.devRef .tc main_v12) : S1x128.Idx → EReal) (ix2 (0 : Fin 1) q) = argb1 m c (ix1 q) :=
  (congrFun (s0_v12 (Gen.W0 m ρ c)) (ix2 (0 : Fin 1) q)).trans
    (shapeCast_a_1a_apply (argb1 m c) Gen.shapeCasts_S128_S1x128 (0 : Fin 1) q)

/-- The scale column at `(p, 0)` is the normaliser of row `p`. -/
theorem W1_v13_apply (p : Fin 100000) :
    (Gen.W1 (F := Ideal) m ρ c (Proc.devRef .tc main_v13) : S100000x1.Idx → EReal) (ix2 p (0 : Fin 1)) = dinvA m ρ c (ix1 p) :=
  (congrFun (s0_v13 (Gen.W0 m ρ c)) (ix2 p (0 : Fin 1))).trans
    (Keepdims.shapeCast_a_a1_apply (dinvA m ρ c) Gen.shapeCasts_S100000_S100000x1 p (0 : Fin 1))

/-- THE FIRST LAYER'S OUTPUT at `(p, q)`: row `p` of the features against column `q` of the first weight matrix, plus
    the first bias at `q`, times the normaliser of row `p`. -/
theorem YS1_apply (p : Fin 100000) (q : Fin 128) :
    YS1 m ρ c (ix2 p q)
      = ((∑ k : Fin 128, argX m c (ix2 p k) * argW1 m c (ix2 k q)) + argb1 m c (ix1 q)) * dinvA m ρ c (ix1 p) := by
  refine (congrFun (Gen.W2_arr (F := Ideal) m ρ c 4) (ix2 p q)).trans ?_
  refine (Cert.KernelIdeal.RegionValue.arr0 (Gen.V1 (F := Ideal) m ρ) c p q).trans ?_
  have eX : Cert.KernelIdeal.RegionValue.inX0 (Gen.V1 (F := Ideal) m ρ) c = argX m c := W1_arg0 m ρ c
  have eW : Cert.KernelIdeal.RegionValue.inW0 (Gen.V1 (F := Ideal) m ρ) c = argW1 m c := W1_arg2 m ρ c
  have eB : Cert.KernelIdeal.RegionValue.inB0 (Gen.V1 (F := Ideal) m ρ) c (ix2 (0 : Fin 1) q) = argb1 m c (ix1 q) :=
    W1_v12_apply m ρ c q
  have eD : Cert.KernelIdeal.RegionValue.inD0 (Gen.V1 (F := Ideal) m ρ) c (ix2 p (0 : Fin 1)) = dinvA m ρ c (ix1 p) :=
    W1_v13_apply m ρ c p
  rw [eX, eW, eB, eD]

/-! ### From the first layer's exit to the second layer's entry -/

/-- A buffer that neither the first layer nor the three stretches after it write holds at the second layer's entry
    what it held at the first layer's entry. -/
theorem W5_of_W1 (b : Ref sig .tc)
    (h12 : ∀ U : Valuation τ sig (Elt Ideal), after Gen.hostOps1_2 U (Proc.devRef .tc b) = U (Proc.devRef .tc b))
    (h11 : ∀ U : Valuation τ sig (Elt Ideal), after Gen.hostOps1_1 U (Proc.devRef .tc b) = U (Proc.devRef .tc b))
    (h1 : ∀ U : Valuation τ sig (Elt Ideal), after Gen.hostOps1 U (Proc.devRef .tc b) = U (Proc.devRef .tc b))
    (h0 : ∀ w, Pipeline.arrRef spec0 w ≠ b) :
    Gen.W5 (F := Ideal) m ρ c (Proc.devRef .tc b) = Gen.W1 (F := Ideal) m ρ c (Proc.devRef .tc b) :=
  (h12 (Gen.W4 m ρ c)).trans ((h11 (Gen.W3 m ρ c)).trans ((h1 (Gen.W2 m ρ c)).trans (Gen.W2_of_ne m ρ c b h0)))

theorem W5_v3 : Gen.W5 (F := Ideal) m ρ c (Proc.devRef .tc main_v3) = rowA m ρ c :=
  W5_of_W1 m ρ c main_v3 s12_v3 s11_v3 s1_v3 (by decide)
theorem W5_v6 : Gen.W5 (F := Ideal) m ρ c (Proc.devRef .tc main_v6) = colA m ρ c :=
  W5_of_W1 m ρ c main_v6 s12_v6 s11_v6 s1_v6 (by decide)
theorem W5_v11 : Gen.W5 (F := Ideal) m ρ c (Proc.devRef .tc main_v11) = dinvA m ρ c :=
  W5_of_W1 m ρ c main_v11 s12_v11 s11_v11 s1_v11 (by decide)
theorem W5_arg4 : Gen.W5 (F := Ideal) m ρ c (Proc.devRef .tc main_arg4) = argW2 m c :=
  (W5_of_W1 m ρ c main_arg4 s12_arg4 s11_arg4 s1_arg4 (by decide)).trans (W1_arg4 m ρ c)
/-- The second bias vector just before the last stretch. -/
theorem W4_arg5 : Gen.W4 (F := Ideal) m ρ c (Proc.devRef .tc main_arg5) = argb2 m c :=
  (s11_arg5 (Gen.W3 m ρ c)).trans ((s1_arg5 (Gen.W2 m ρ c)).trans ((Gen.W2_of_ne m ρ c main_arg5 (by decide)).trans (W1_arg5 m ρ c)))
/-- The normalisers just before the last stretch. -/
theorem W4_v11 : Gen.W4 (F := Ideal) m ρ c (Proc.devRef .tc main_v11) = dinvA m ρ c :=
  (s11_v11 (Gen.W3 m ρ c)).trans ((s1_v11 (Gen.W2 m ρ c)).trans (Gen.W2_of_ne m ρ c main_v11 (by decide)))

/-- THE HIDDEN FEATURES: the first layer's output aggregated over the edges, then the maximum with zero. -/
theorem hid1_eq :
    hid1 m ρ c = Cert.Gcn.reluK (Cert.Gcn.aggK (YS1 m ρ c) (rowA m ρ c) (colA m ρ c) (dinvA m ρ c)) := by
  refine (s12_v28 (Gen.W4 m ρ c)).trans ?_
  refine (s11_v28 (Gen.W3 m ρ c)).trans ?_
  refine congrArg Cert.Gcn.reluK ?_
  refine (s1_v27 (Gen.W2 m ρ c)).trans ?_
  rw [Gen.W2_of_ne m ρ c main_v3 (by decide), Gen.W2_of_ne m ρ c main_v6 (by decide), Gen.W2_of_ne m ρ c main_v11 (by decide)]

/-! ### What the second layer finds -/

theorem W5_v29_apply (q : Fin 128) :
    (Gen.W5 (F := Ideal) m ρ c (Proc.devRef .tc main_v29) : S1x128.Idx → EReal) (ix2 (0 : Fin 1) q) = argb2 m c (ix1 q) := by
  refine (congrFun (s12_v29 (Gen.W4 m ρ c)) (ix2 (0 : Fin 1) q)).trans ?_
  refine (shapeCast_a_1a_apply (Gen.W4 (F := Ideal) m ρ c (Proc.devRef .tc main_arg5) : S128.Idx → EReal)
    Gen.shapeCasts_S128_S1x128 (0 : Fin 1) q).trans ?_
  exact congrFun (W4_arg5 m ρ c) (ix1 q)

theorem W5_v30_apply (p : Fin 100000) :
    (Gen.W5 (F := Ideal) m ρ c (Proc.devRef .tc main_v30) : S100000x1.Idx → EReal) (ix2 p (0 : Fin 1)) = dinvA m ρ c (ix1 p) := by
  refine (congrFun (s12_v30 (Gen.W4 m ρ c)) (ix2 p (0 : Fin 1))).trans ?_
  refine (Keepdims.shapeCast_a_a1_apply (Gen.W4 (F := Ideal) m ρ c (Proc.devRef .tc main_v11) : S100000.Idx → EReal)
    Gen.shapeCasts_S100000_S100000x1 p (0 : Fin 1)).trans ?_
  exact congrFun (W4_v11 m ρ c) (ix1 p)

/-- THE SECOND LAYER'S OUTPUT at `(p, q)`: row `p` of the hidden features against column `q` of the second weight
    matrix, plus the second bias at `q`, times the normaliser of row `p`. -/
theorem YS2_apply (p : Fin 100000) (q : Fin 128) :
    YS2 m ρ c (ix2 p q)
      = ((∑ k : Fin 128, hid1 m ρ c (ix2 p k) * argW2 m c (ix2 k q)) + argb2 m c (ix1 q)) * dinvA m ρ c (ix1 p) := by
  refine (congrFun (Gen.W6_arr (F := Ideal) m ρ c 4) (ix2 p q)).trans ?_
  refine (Cert.KernelIdeal.RegionValue.arr1 (Gen.V5 (F := Ideal) m ρ) c p q).trans ?_
  have eX : Cert.KernelIdeal.RegionValue.inX1 (Gen.V5 (F := Ideal) m ρ) c = hid1 m ρ c := rfl
  have eW : Cert.KernelIdeal.RegionValue.inW1 (Gen.V5 (F := Ideal) m ρ) c = argW2 m c := W5_arg4 m ρ c
  have eB : Cert.KernelIdeal.RegionValue.inB1 (Gen.V5 (F := Ideal) m ρ) c (ix2 (0 : Fin 1) q) = argb2 m c (ix1 q) :=
    W5_v29_apply m ρ c q
  have eD : Cert.KernelIdeal.RegionValue.inD1 (Gen.V5 (F := Ideal) m ρ) c (ix2 p (0 : Fin 1)) = dinvA m ρ c (ix1 p) :=
    W5_v30_apply m ρ c p
  rw [eX, eW, eB, eD]

end Run

end Cert.KernelIdeal.HostValue

end
-- ==== Proof.KernelTail.lean ====
/-
  The idealized kernel program's last two host stretches, read as array terms and at an index.

  Between its second and third kernel regions the program aggregates the second layer's scaled linear output over the
  graph's edges: the rows gathered at the edges' sources are added into the rows the edges' targets name, and each
  target row is scaled by its node's normaliser. The edge index arrays and the normaliser were computed by the first host
  stretch and no later stretch or region writes them, so at the third region's entry they still hold what that first
  stretch left. After the third region one reshape turns its [1, 128] result into the program's [128] result: column q of
  the result is entry (0, q) of the region's output, which is the sum over all 100000 rows r of max(a(r, q), 0), times
  1/100000, where a is the aggregated array the region reads.
-/
import proofs.«141483_j2800318677072_2_alg».proof.Proof.KernelRun
import proofs.«141483_j2800318677072_2_alg».proof.Proof.KernelValue
import proofs.«141483_j2800318677072_2_alg».proof.Proof.RegionPool
import proofs.«141483_j2800318677072_2_alg».proof.Proof.GcnTerms
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.StableHlo
open Idealize.ShloMosaic.ValueIdx

namespace Cert.KernelIdeal.HostTail

open Cert.KernelIdeal Cert.KernelIdeal.Gen
open Cert.KernelIdeal.HostValue (rowA colA dinvA YS2)

/-! ## The two stretches, over any contents of the buffers before them -/

section Stretches

variable (U : Valuation τ sig (Elt Ideal))

/-- The stretch before the third region: its sixteen operations composed are the aggregation of the array in the second
    region's output buffer over the three index and normaliser buffers. -/
theorem s2_v44 : after hostOps2 U (Proc.devRef .tc main_v44)
    = Cert.Gcn.aggK (U (Proc.devRef .tc main_v31)) (U (Proc.devRef .tc main_v3)) (U (Proc.devRef .tc main_v6))
        (U (Proc.devRef .tc main_v11)) := by
  after_results_simp
  rfl

/-- The last stretch: one reshape of the third region's [1, 128] output buffer to [128]. -/
theorem s3_v46 : after hostOps3 U (Proc.devRef .tc main_v46)
    = fun i => shapeCast S128 (U (Proc.devRef .tc main_v45)) shapeCasts_S1x128_S128 i := by
  after_results
  rfl

end Stretches

/-! ## The run's boundaries -/

variable (m : (ℓ : Loc nD τ sig) → Buf (Elt Ideal) ℓ) (ρ : Dev nD → PrngReg)

/-- The aggregated array the third kernel region reads. -/
abbrev agg2 (c : Dev nD) : FVec Ideal S100000x128 .f32 := W7 (F := Ideal) m ρ c (Proc.devRef .tc main_v44)
/-- The third kernel region's [1, 128] output array, after the region. -/
abbrev outBlk (c : Dev nD) : FVec Ideal S1x128 .f32 := W8 (F := Ideal) m ρ c (Proc.devRef .tc main_v45)

/-- At the second region's exit the source indices are what the first stretch left: the region does not have them among
    its arrays, and no stretch before it writes them. -/
theorem pass_v3 (c : Dev nD) : W6 (F := Ideal) m ρ c (Proc.devRef .tc main_v3) = rowA m ρ c :=
  (W6_of_ne m ρ c main_v3 (by decide)).trans (HostValue.W5_v3 m ρ c)

/-- The same for the target indices. -/
theorem pass_v6 (c : Dev nD) : W6 (F := Ideal) m ρ c (Proc.devRef .tc main_v6) = colA m ρ c :=
  (W6_of_ne m ρ c main_v6 (by decide)).trans (HostValue.W5_v6 m ρ c)

/-- The same for the normalisers. -/
theorem pass_v11 (c : Dev nD) : W6 (F := Ideal) m ρ c (Proc.devRef .tc main_v11) = dinvA m ρ c :=
  (W6_of_ne m ρ c main_v11 (by decide)).trans (HostValue.W5_v11 m ρ c)

/-- The array the third region reads is the aggregation of the second region's output over the edge arrays and the
    normalisers of the first stretch. -/
theorem agg2_eq (c : Dev nD) :
    agg2 m ρ c = Cert.Gcn.aggK (YS2 m ρ c) (rowA m ρ c) (colA m ρ c) (dinvA m ρ c) :=
  (s2_v44 (W6 m ρ c)).trans (by rw [pass_v3 m ρ c, pass_v6 m ρ c, pass_v11 m ρ c])

/-- The program's result buffer is the reshape of the third region's output array. -/
theorem w9_v46 (c : Dev nD) :
    (W9 (F := Ideal) m ρ c (Proc.devRef .tc main_v46) : FVec Ideal S128 .f32)
      = fun i => shapeCast S128 (outBlk m ρ c) shapeCasts_S1x128_S128 i :=
  s3_v46 (W8 m ρ c)

/-- Column q of the program's result: the sum over all 100000 rows r of max(a(r, q), 0), times 1/100000, a the
    aggregated array the third region reads. -/
theorem result_apply (c : Dev nD) (q : Fin 128) :
    ((W9 (F := Ideal) m ρ c (Proc.devRef .tc main_v46) : S128.Idx → EReal) (ValueIdx.ix1 q) : EReal)
      = (∑ r : Fin 100000, max (agg2 m ρ c (ValueIdx.ix2 r q)) 0) * ((1 / 100000 : ℝ) : EReal) := by
  refine (congrFun (w9_v46 m ρ c) (ix1 q)).trans ?_
  refine (shapeCast_apply (outBlk m ρ c) shapeCasts_S1x128_S128 (ix1 q) (ix2 0 q) ?_).trans ?_
  · rw [Shape.rowMajor_val_two, Shape.rowMajor_val_one]
    show 0 * 128 + q.val = q.val
    omega
  · refine (congrFun (W8_arr m ρ c 1) (ix2 0 q)).trans ?_
    exact PoolValue.arr2 (V7 m ρ) c q

end Cert.KernelIdeal.HostTail

end
-- ==== Proof.RefValue.lean ====
/-
  The reference program's stages, read as the mathematics they compute, on the extended reals.

  The reference is a two-layer graph convolution followed by a mean over the rows. Each layer is a dense map
  (x · W + b), an aggregation over the edges (gather the rows at the edges' sources, scale each edge's row by the
  product of the normalisers of its two ends, add into the rows the edges' targets name), and a maximum with zero.
  Three facts are stated about the array terms: the first aggregation is the aggregation function at the first dense
  map's output; the second dense map is the first one's function at the hidden array; the second aggregation is the
  same aggregation function at the second dense map's output — its index and normaliser arrays are computed a second
  time by the program, by the same operations of the same edge array, so they are the same terms. Then three stages
  are read at an index: the dense map as a sum over the 128 contracted columns plus the bias; the maximum with zero;
  and the final mean, as the sum over all 100000 rows times 1/100000 (a quotient by the real 100000 is the product
  with its reciprocal on every extended real, and the sum starts from zero).
-/
import proofs.«141483_j2800318677072_2_alg».proof.Proof.GcnTerms
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The array terms -/

/-- The first aggregation is the aggregation function at the first dense map's output. -/
theorem v43_eq :
    val_main_v43 (F := Ideal) x0 x1 x2 x3 = Cert.Gcn.convR (val_main_v10 (F := Ideal) x0 x2 x3) x1 := by
  unfold val_main_v43 val_main_v40 val_main_v37 Cert.Gcn.convR
  rfl

/-- The second dense map is the first one's function, at the hidden array and the second layer's weights. -/
theorem v48_eq :
    val_main_v48 (F := Ideal) x0 x1 x2 x3 x4 x5
      = val_main_v10 (F := Ideal) (val_main_v44 (F := Ideal) x0 x1 x2 x3) x4 x5 := by
  unfold val_main_v48 val_main_v45 val_main_v47 val_main_v46 val_main_v10 val_main_v7 val_main_v9 val_main_v8
  rfl

/-! The second layer computes its index and normaliser arrays again, by the same operations of the same edge array:
    each repeated stage is the same term as its first occurrence. -/

/-- The zero array the second aggregation adds into is the first one's. -/
theorem v79_eq : val_main_v79 (F := Ideal) = val_main_v41 (F := Ideal) := by
  unfold val_main_v79 val_main_cst_15 val_main_v41 val_main_cst_6
  rfl

/-- The targets' index array. -/
theorem v80_eq : val_main_v80 (F := Ideal) x1 = val_main_v42 (F := Ideal) x1 := by
  unfold val_main_v80 val_main_v42
  rfl

/-- The sources' index array (negative indices wrapped). -/
theorem v74_eq : val_main_v74 (F := Ideal) x1 = val_main_v36 (F := Ideal) x1 := by
  unfold val_main_v74 val_main_v73 val_main_v70 val_main_v69 val_main_c_13 val_main_v72 val_main_v71 val_main_c_14
    val_main_v36 val_main_v35 val_main_v32 val_main_v31 val_main_c_4 val_main_v34 val_main_v33 val_main_c_5
  rfl

/-- The nodes' normalisers: the reciprocal square roots of the degrees. -/
theorem v53_eq : val_main_v53 (F := Ideal) x1 = val_main_v15 (F := Ideal) x1 := by
  unfold val_main_v53 val_main_v52 val_main_v50 val_main_cst_8 val_main_v51 val_main_v49 val_main_cst_7
    val_main_v15 val_main_v14 val_main_v12 val_main_cst_0 val_main_v13 val_main_v11 val_main_cst
  rfl

/-- The sources' index array used for the normalisers. -/
theorem v59_eq : val_main_v59 (F := Ideal) x1 = val_main_v21 (F := Ideal) x1 := by
  unfold val_main_v59 val_main_v58 val_main_v55 val_main_v54 val_main_c_9 val_main_v57 val_main_v56 val_main_c_10
    val_main_v21 val_main_v20 val_main_v17 val_main_v16 val_main_c val_main_v19 val_main_v18 val_main_c_1
  rfl

/-- The targets' index array used for the normalisers. -/
theorem v66_eq : val_main_v66 (F := Ideal) x1 = val_main_v28 (F := Ideal) x1 := by
  unfold val_main_v66 val_main_v65 val_main_v62 val_main_v61 val_main_c_11 val_main_v64 val_main_v63 val_main_c_12
    val_main_v28 val_main_v27 val_main_v24 val_main_v23 val_main_c_2 val_main_v26 val_main_v25 val_main_c_3
  rfl

/-- Each edge's weight: the product of the normalisers of its two ends. -/
theorem v68_eq : val_main_v68 (F := Ideal) x1 = val_main_v30 (F := Ideal) x1 := by
  unfold val_main_v68 val_main_v60 val_main_v67 val_main_v30 val_main_v22 val_main_v29
  rw [v53_eq, v59_eq, v66_eq]

/-- The edge weights spread over the 128 columns. -/
theorem v77_eq : val_main_v77 (F := Ideal) x1 = val_main_v39 (F := Ideal) x1 := by
  unfold val_main_v77 val_main_v76 val_main_v39 val_main_v38
  rw [v68_eq]

/-- The second aggregation is the aggregation function at the second dense map's output. -/
theorem v81_eq :
    val_main_v81 (F := Ideal) x0 x1 x2 x3 x4 x5
      = Cert.Gcn.convR (val_main_v48 (F := Ideal) x0 x1 x2 x3 x4 x5) x1 := by
  unfold val_main_v81 val_main_v78 val_main_v75 Cert.Gcn.convR
  rw [v79_eq, v80_eq, v74_eq, v77_eq]

/-! ## Stages read at an index -/

/-- The dense map at (p, q): the sum over the 128 contracted columns k of X(p, k) · W(k, q), plus the bias b(q). -/
theorem lin_apply (X : (⟨S100000x128, .f32⟩ : BufTy).Contents (Elt Ideal)) (W : (⟨S128x128, .f32⟩ : BufTy).Contents (Elt Ideal))
    (b : (⟨S128, .f32⟩ : BufTy).Contents (Elt Ideal)) (p : Fin 100000) (q : Fin 128) :
    val_main_v10 (F := Ideal) X W b (ix2 p q) = (∑ k : Fin 128, X (ix2 p k) * W (ix2 k q)) + b (ix1 q) := by
  rw [val_main_v10_apply, val_main_v7_apply, val_main_v9_apply, val_main_v8_apply]
  have el : ∀ k : Fin 128, lidx_main_v7 (ix2 p q) k = ix2 p k := fun k => funext fun a => Fin.ext (by
    match a with | ⟨0, _⟩ => rfl | ⟨1, _⟩ => rfl)
  have er : ∀ k : Fin 128, ridx_main_v7 (ix2 p q) k = ix2 k q := fun k => funext fun a => Fin.ext (by
    match a with | ⟨0, _⟩ => rfl | ⟨1, _⟩ => rfl)
  have eb : idx_main_v8 (idx_main_v9 (ix2 p q)) = ix1 q := funext fun a => Fin.ext (by
    match a with | ⟨0, _⟩ => rfl)
  rw [eb]
  simp only [el, er]
  rfl

/-- The first maximum with zero, entry by entry. -/
theorem relu1_apply (i : S100000x128.Idx) :
    val_main_v44 (F := Ideal) x0 x1 x2 x3 i = max (val_main_v43 (F := Ideal) x0 x1 x2 x3 i) 0 := by
  rw [val_main_v44_apply, val_main_call0_v0_apply, val_main_call0_cst_apply]
  show max _ (Ideal.ofBits .f32 0x00000000#32) = _
  rw [Ideal.ofBits_zero_f32]

/-- The second maximum with zero, entry by entry. -/
theorem relu2_apply (i : S100000x128.Idx) :
    val_main_v82 (F := Ideal) x0 x1 x2 x3 x4 x5 i = max (val_main_v81 (F := Ideal) x0 x1 x2 x3 x4 x5 i) 0 := by
  rw [val_main_v82_apply, val_main_call1_v0_apply, val_main_call1_cst_apply]
  show max _ (Ideal.ofBits .f32 0x00000000#32) = _
  rw [Ideal.ofBits_zero_f32]

/-- The divisor's word denotes the real 100000 (1.52587890625 · 2¹⁶). -/
theorem ofBits_100000 : Ideal.ofBits .f32 0x47C35000#32 = ((100000 : ℝ) : EReal) := by
  simp [Ideal.ofBits, Ideal.ieee, -EReal.coe_mul]; norm_num

/-- The result at column q: the sum over all 100000 rows of the clamped second aggregation, times 1/100000. -/
theorem out_apply (q : Fin 128) :
    val_main_v85 (F := Ideal) x0 x1 x2 x3 x4 x5 (ix1 q)
      = (∑ r : Fin 100000, max (val_main_v81 (F := Ideal) x0 x1 x2 x3 x4 x5 (ix2 r q)) 0)
        * ((1 / 100000 : ℝ) : EReal) := by
  rw [val_main_v85_apply, val_main_v83_apply, val_main_v84_apply, val_main_cst_17_apply, val_main_cst_16_apply]
  show Ideal.div (Ideal.ofBits .f32 0x00000000#32 + _) (Ideal.ofBits .f32 0x47C35000#32) = _
  rw [Ideal.ofBits_zero_f32, zero_add, ofBits_100000, Ideal.div_coe (by norm_num : (100000 : ℝ) ≠ 0)]
  refine congrArg (· * ((1 / 100000 : ℝ) : EReal)) (Finset.sum_congr rfl fun r _ => ?_)
  have e : idx_main_v83 (ix1 q) r = ix2 r q := funext fun a => Fin.ext (by
    match a with | ⟨0, _⟩ => rfl | ⟨1, _⟩ => rfl)
  rw [e, relu2_apply]

end Cert.ReferenceIdeal.RefValue

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibRowScatter.lean ====
/-
  Indexed reads and accumulating writes of rows, read at an index.

  * A vector gather `x[idx]` of a table `x : [N]` at start indices `[R, 1]` (collapsed axis 0, start index map [0],
    slice sizes [1], index vector axis 1): entry `r` of the result is the table's entry whose number is `idx[r, 0]`
    read as a signed integer and clamped into `[0, N - 1]`.
  * An accumulating scatter of rows: updates `[R, C]` (or `[R]`) added into an operand `[N, C]` (or `[N]`) at the rows
    the scatter indices `[R, 1]` name (inserted window axis 0, scatter-dims-to-operand-dims [0], index vector axis 1;
    update window axis 1 for rows). Update `(e, q)` lands on operand element `(z, q)` where `z = idx[e, 0]` read as a
    signed integer, NOT clamped; an update whose `z` is outside `[0, N)` lands nowhere.
  The extents are arbitrary.
-/
import Idealize.ShloMosaic.Lib.ValueIdx

namespace RowScatter

open Idealize.ShloMosaic Idealize.ShloMosaic.ValueIdx

variable {α : Type}

/-! ## The vector gather -/

/-- The dimension numbers of a vector gather for a table `[N]`, start indices `[R, 1]` and result `[R]`. -/
abbrev vecGather (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gathered vector at `r` is the table at `clamp (idx (r, 0))`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r)
      = x (ix1 ⟨min (idx (ix2 r (0 : Fin 1))).toInt.toNat (N - 1), by omega⟩) := by
  unfold Host.gather
  congr 1
  funext a
  refine Fin.ext ?_
  match a with
  | ⟨0, _⟩ =>
    show (vecGather N R wf).start (ix1 r) idx (0 : Fin 1) + (vecGather N R wf).batchCoord (ix1 r) (0 : Fin 1)
        + (vecGather N R wf).offCoord (ix1 r) (0 : Fin 1) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecGather N R wf).startIndexMap from List.mem_singleton.mpr rfl)]
    have hsi : (vecGather N R wf).siIdx (ix1 r) ⟨List.idxOf (0 : Fin 1) (vecGather N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## The accumulating scatter of rows -/

/-- The dimension numbers of a row scatter: operand `[N, C]`, scatter indices `[R, 1]`, updates `[R, C]`. -/
abbrev rowScatter (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row an update lands on, before the range check: the scatter index read signed. -/
theorem rowScatter_start_zero {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatter N C R wf).start j idx (0 : Fin 2) = (idx (ix2 (j 0) (0 : Fin 1))).toInt := by
  unfold ScatterDims.start
  rw [dif_pos (show (0 : Fin 2) ∈ (rowScatter N C R wf).scatterDimsToOperandDims from List.mem_singleton.mpr rfl)]
  have hsi : (rowScatter N C R wf).siIdx j ⟨List.idxOf (0 : Fin 2) (rowScatter N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window_zero {N C R : Nat}
    (wf : ScatterDims.WF ⟨2, ![N, C]⟩ ⟨2, ![R, 1]⟩ ⟨2, ![R, C]⟩ [1] [0] [0] 1)
    (j : (⟨2, ![R, C]⟩ : Shape).Idx) : (rowScatter N C R wf).window j (0 : Fin 2) = 0 := by
  unfold ScatterDims.window
  exact dif_neg (by simp [ScatterDims.sKept, Shape.kept, List.mem_filter])

/-- An update that lands on operand element `i` has its scatter index, read signed, equal to `i`'s row. -/
theorem rowScatter_lands {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatter N C R wf).resultIdx? j idx = some i) :
    (idx (ix2 (j 0) (0 : Fin 1))).toInt = ((i 0).val : Int) := by
  unfold ScatterDims.resultIdx? at h
  split at h
  · rename_i hr
    have h0 := hr (0 : Fin 2)
    have hi := congrArg (fun f => (f (0 : Fin 2)).val) (Option.some.inj h)
    simp only at hi
    rw [rowScatter_start_zero, rowScatter_window_zero] at h0 hi
    omega
  · exact absurd h (by simp)

/-! ## The accumulating scatter into a vector -/

/-- The dimension numbers of a vector scatter: operand `[N]`, scatter indices `[R, 1]`, updates `[R]`. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_start_zero {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) :
    (vecScatter N R wf).start e idx (0 : Fin 1) = (idx (ix2 (e 0) (0 : Fin 1))).toInt := by
  unfold ScatterDims.start
  rw [dif_pos (show (0 : Fin 1) ∈ (vecScatter N R wf).scatterDimsToOperandDims from List.mem_singleton.mpr rfl)]
  have hsi : (vecScatter N R wf).siIdx e ⟨List.idxOf (0 : Fin 1) (vecScatter N R wf).scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

theorem vecScatter_window_zero {N R : Nat}
    (wf : ScatterDims.WF ⟨1, ![N]⟩ ⟨2, ![R, 1]⟩ ⟨1, ![R]⟩ [] [0] [0] 1)
    (e : (⟨1, ![R]⟩ : Shape).Idx) : (vecScatter N R wf).window e (0 : Fin 1) = 0 := by
  unfold ScatterDims.window
  exact dif_neg (by simp [ScatterDims.sKept, Shape.kept, List.mem_filter])

/-- An update whose scatter index, read signed, is the number of an operand entry lands on that entry. -/
theorem vecScatter_lands_of {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) (n : Fin N)
    (h : (idx (ix2 (e 0) (0 : Fin 1))).toInt = (n.val : Int)) :
    (vecScatter N R wf).resultIdx? e idx = some (ix1 n) := by
  have hr : ∀ a : Fin 1, 0 ≤ (vecScatter N R wf).start e idx a + (vecScatter N R wf).window e a
      ∧ (vecScatter N R wf).start e idx a + (vecScatter N R wf).window e a < ((⟨1, ![N]⟩ : Shape).size a : Int) := by
    intro a
    match a with
    | ⟨0, _⟩ =>
      show 0 ≤ (vecScatter N R wf).start e idx (0 : Fin 1) + (vecScatter N R wf).window e (0 : Fin 1)
        ∧ (vecScatter N R wf).start e idx (0 : Fin 1) + (vecScatter N R wf).window e (0 : Fin 1) < (N : Int)
      rw [vecScatter_start_zero, vecScatter_window_zero, h]
      have := n.isLt
      omega
  unfold ScatterDims.resultIdx?
  rw [dif_pos hr]
  refine congrArg some (funext fun a => Fin.ext ?_)
  match a with
  | ⟨0, _⟩ =>
    show ((vecScatter N R wf).start e idx (0 : Fin 1) + (vecScatter N R wf).window e (0 : Fin 1)).toNat = n.val
    rw [vecScatter_start_zero, vecScatter_window_zero, h]
    omega

end RowScatter
-- ==== Proof.GcnLaw.lean ====
/-
  The algebra that joins the two arrangements of one graph-convolution aggregation, on the extended reals.

  Node `n` receives the messages of the edges that land on it. One arrangement scales each source row by the source's
  normaliser, sums the messages, and scales the sum by the target's normaliser `c`; the other scales each message
  by the product of the two normalisers and sums. They agree when the target's normaliser, read at each landing edge,
  is `c`, and `c` is a finite nonnegative number whenever some edge lands: multiplication by such a `c` distributes
  over any finite sum of extended reals, and with no landing edge both sides are zero.
  The normaliser is the reciprocal square root of the in-degree, and the in-degree is a count of landing edges: a
  positive count has a finite nonnegative reciprocal square root.
-/
import Idealize.ShloMosaic.PureOps.Ideal

namespace GcnLaw

open Idealize.ShloMosaic Finset

/-- Multiplication by a finite nonnegative extended real distributes over a finite sum. -/
theorem sum_mul_of_nonneg_of_ne_top {ι : Type} (s : Finset ι) (u : ι → EReal) {c : EReal} (h0 : 0 ≤ c) (ht : c ≠ ⊤) :
    (∑ j ∈ s, u j) * c = ∑ j ∈ s, u j * c := by
  classical
  induction s using Finset.induction_on with
  | empty => simp
  | insert a s ha ih =>
    rw [sum_insert ha, sum_insert ha, EReal.right_distrib_of_nonneg_of_ne_top h0 ht, ih]

/-- Scaling the summed messages by the target's normaliser is scaling each message by it. -/
theorem aggregate_scale {ι : Type} (s : Finset ι) (a dr dc : ι → EReal) (c : EReal)
    (hdc : ∀ j ∈ s, dc j = c) (hc : s.Nonempty → 0 ≤ c ∧ c ≠ ⊤) :
    (0 + ∑ j ∈ s, a j * dr j) * c = 0 + ∑ j ∈ s, a j * (dr j * dc j) := by
  rcases s.eq_empty_or_nonempty with rfl | hne
  · simp
  · obtain ⟨h0, ht⟩ := hc hne
    rw [zero_add, zero_add, sum_mul_of_nonneg_of_ne_top s _ h0 ht]
    refine Finset.sum_congr rfl fun j hj => ?_
    rw [hdc j hj, mul_assoc]

/-- A sum of ones is the number of its terms. -/
theorem sum_one_eq_card {ι : Type} (s : Finset ι) : ∑ _e ∈ s, (1 : EReal) = ((s.card : ℝ) : EReal) := by
  classical
  induction s using Finset.induction_on with
  | empty => simp
  | insert a s ha ih =>
    rw [sum_insert ha, card_insert_of_notMem ha, ih, Nat.cast_succ, EReal.coe_add, EReal.coe_one, add_comm]

/-- The reciprocal square root of a positive count is a finite nonnegative number. -/
theorem rsqrt_card_nonneg_ne_top {n : ℕ} (hn : 0 < n) :
    0 ≤ Ideal.rsqrt (((n : ℝ) : EReal)) ∧ Ideal.rsqrt (((n : ℝ) : EReal)) ≠ ⊤ := by
  have hpos : (0 : ℝ) < (n : ℝ) := by exact_mod_cast hn
  rw [Ideal.rsqrt_coe, if_neg (not_lt.mpr hpos.le), if_neg hpos.ne']
  exact ⟨by exact_mod_cast inv_nonneg.mpr (Real.sqrt_nonneg _), EReal.coe_ne_top _⟩

end GcnLaw
-- ==== Proof.GcnLayer.lean ====
/-
  One graph-convolution aggregation in two arrangements, as arrays on the extended reals.

  The edges are `R` pairs (source, target) over `N` nodes; `Y : [N, C]` holds one feature row per node. The in-degree
  of node `n` is the number of edges whose target, read as a signed integer, is `n` (an edge whose target is outside
  `[0, N)` counts nowhere), and `dinv n` is its reciprocal square root.
  * One arrangement gathers the source rows of `Y` already scaled by the source's `dinv`, adds the gathered rows into
    their targets, and scales row `n` of the result by `dinv n`.
  * The other gathers the source rows of `Y`, scales the row of edge `e` by `dinv (source e) · dinv (target e)`, both read
    through a clamping gather, and adds the rows into their targets.
  They are the same array: an edge that lands on row `n` has target `n` in range, where the clamping gather reads
  `dinv n` itself; and a row some edge lands on has positive in-degree, so its `dinv` is a finite nonnegative number,
  which distributes over the sum of the landed rows (`GcnLaw.aggregate_scale`). The extents are arbitrary.
-/
import Idealize.ShloMosaic.Lib.ValueIdx
import Idealize.ShloMosaic.PureOps.Ideal
import proofs.«141483_j2800318677072_2_alg».proof.Proof.LibRowGather
import proofs.«141483_j2800318677072_2_alg».proof.Proof.LibRowScatter
import proofs.«141483_j2800318677072_2_alg».proof.Proof.GcnLaw

namespace GcnLayer

open Idealize.ShloMosaic Idealize.ShloMosaic.ValueIdx RowGather RowScatter

/-- The row a clamping gather reads for edge `e`: the index read signed and clamped into `[0, N - 1]`. -/
def src {N R : Nat} (hN : 0 < N) (I : IVec ⟨2, ![R, 1]⟩ 32) (e : Fin R) : Fin N :=
  ⟨min (I (ix2 e (0 : Fin 1))).toInt.toNat (N - 1), by omega⟩

theorem layer_eq {N C R : Nat} (hN : 0 < N)
    (wfS2 : ScatterDims.WF ⟨2, ![N, C]⟩ ⟨2, ![R, 1]⟩ ⟨2, ![R, C]⟩ [1] [0] [0] 1)
    (wfS1 : ScatterDims.WF ⟨1, ![N]⟩ ⟨2, ![R, 1]⟩ ⟨1, ![R]⟩ [] [0] [0] 1)
    (wfG2 : GatherDims.WF ⟨2, ![N, C]⟩ ⟨2, ![R, 1]⟩ ⟨2, ![R, C]⟩ [1] [0] [] [0] [] 1 ![1, C])
    (wfG1 : GatherDims.WF ⟨1, ![N]⟩ ⟨2, ![R, 1]⟩ ⟨1, ![R]⟩ [] [0] [] [0] [] 1 ![1])
    (Y YS D2 z2 : FVec Ideal ⟨2, ![N, C]⟩ .f32) (Nrm : FVec Ideal ⟨2, ![R, C]⟩ .f32)
    (dinv z1 : FVec Ideal ⟨1, ![N]⟩ .f32) (ones : FVec Ideal ⟨1, ![R]⟩ .f32)
    (colS rowI colI : IVec ⟨2, ![R, 1]⟩ 32)
    (hz2 : ∀ i, z2 i = (0 : EReal)) (hz1 : ∀ n, z1 n = (0 : EReal)) (hones : ∀ e, ones e = (1 : EReal))
    (hcol : ∀ (e : Fin R) (n : Fin N), (colS (ix2 e (0 : Fin 1))).toInt = (n.val : Int) →
      min (colI (ix2 e (0 : Fin 1))).toInt.toNat (N - 1) = n.val)
    (hdinv : ∀ n, dinv n = Ideal.rsqrt (Host.scatterAdd (vecScatter N R wfS1) z1 colS ones n))
    (hYS : ∀ p q, YS (ix2 p q) = Y (ix2 p q) * dinv (ix1 p))
    (hD2 : ∀ p q, D2 (ix2 p q) = dinv (ix1 p))
    (hNrm : ∀ e q, Nrm (ix2 e q)
      = Host.gather (vecGather N R wfG1) dinv rowI (ix1 e) * Host.gather (vecGather N R wfG1) dinv colI (ix1 e)) :
    mulf (Host.scatterAdd (rowScatter N C R wfS2) z2 colS (Host.gather (rowDims N C R wfG2) YS rowI)) D2
      = Host.scatterAdd (rowScatter N C R wfS2) z2 colS (mulf (Host.gather (rowDims N C R wfG2) Y rowI) Nrm) := by
  funext i
  obtain ⟨n, q, rfl⟩ : ∃ (n : Fin N) (q : Fin C), i = ix2 n q := ⟨i 0, i 1, eq_ix2 i⟩
  have hK : ∀ j, Host.gather (rowDims N C R wfG2) YS rowI j
      = Y (ix2 (src hN rowI (j 0)) (j 1)) * dinv (ix1 (src hN rowI (j 0))) := by
    intro j
    obtain ⟨e, q', rfl⟩ : ∃ (e : Fin R) (q' : Fin C), j = ix2 e q' := ⟨j 0, j 1, eq_ix2 j⟩
    rw [gather_row_apply hN wfG2 YS rowI e q', hYS]
    rfl
  have hR : ∀ j, mulf (Host.gather (rowDims N C R wfG2) Y rowI) Nrm j
      = Y (ix2 (src hN rowI (j 0)) (j 1)) * (dinv (ix1 (src hN rowI (j 0))) * dinv (ix1 (src hN colI (j 0)))) := by
    intro j
    obtain ⟨e, q', rfl⟩ : ∃ (e : Fin R) (q' : Fin C), j = ix2 e q' := ⟨j 0, j 1, eq_ix2 j⟩
    show Host.gather (rowDims N C R wfG2) Y rowI (ix2 e q') * Nrm (ix2 e q') = _
    rw [gather_row_apply hN wfG2 Y rowI e q', hNrm, gather_vec_apply hN wfG1 dinv rowI e,
      gather_vec_apply hN wfG1 dinv colI e]
    rfl
  show (Ideal.hostScatterAdd (rowScatter N C R wfS2) z2 colS (Host.gather (rowDims N C R wfG2) YS rowI) (ix2 n q))
        * D2 (ix2 n q)
      = Ideal.hostScatterAdd (rowScatter N C R wfS2) z2 colS (mulf (Host.gather (rowDims N C R wfG2) Y rowI) Nrm) (ix2 n q)
  unfold Ideal.hostScatterAdd
  rw [hz2, hD2]
  simp only [hK, hR]
  refine GcnLaw.aggregate_scale _ (fun j : (⟨2, ![R, C]⟩ : Shape).Idx => Y (ix2 (src hN rowI (j 0)) (j 1)))
    (fun j : (⟨2, ![R, C]⟩ : Shape).Idx => dinv (ix1 (src hN rowI (j 0))))
    (fun j : (⟨2, ![R, C]⟩ : Shape).Idx => dinv (ix1 (src hN colI (j 0)))) (dinv (ix1 n)) ?_ ?_
  · intro j hj
    have hl := (Finset.mem_filter.mp hj).2
    have hz := rowScatter_lands wfS2 colS j (ix2 n q) hl
    have hs : src hN colI (j 0) = n := Fin.ext (hcol (j 0) n hz)
    show dinv (ix1 (src hN colI (j 0))) = dinv (ix1 n)
    rw [hs]
  · rintro ⟨j, hj⟩
    have hl := (Finset.mem_filter.mp hj).2
    have hz := rowScatter_lands wfS2 colS j (ix2 n q) hl
    have he : (vecScatter N R wfS1).resultIdx? (ix1 (j 0)) colS = some (ix1 n) :=
      vecScatter_lands_of wfS1 colS (ix1 (j 0)) n hz
    rw [hdinv]
    show 0 ≤ Ideal.rsqrt (Ideal.hostScatterAdd (vecScatter N R wfS1) z1 colS ones (ix1 n))
      ∧ Ideal.rsqrt (Ideal.hostScatterAdd (vecScatter N R wfS1) z1 colS ones (ix1 n)) ≠ ⊤
    unfold Ideal.hostScatterAdd
    rw [hz1]
    simp only [hones]
    rw [zero_add, GcnLaw.sum_one_eq_card]
    exact GcnLaw.rsqrt_card_nonneg_ne_top
      (Finset.card_pos.mpr ⟨ix1 (j 0), Finset.mem_filter.mpr ⟨Finset.mem_univ _, he⟩⟩)

end GcnLayer
-- ==== Proof.GcnBridge.lean ====
/-
  The kernel's arrangement of one aggregation equals the reference's, as array terms over the reference's stages.

  With `row`, `col` the edges' sources and targets and `dinv` the reciprocal square root of the in-degree — the
  reference program's own stages of the edge array `E` — the kernel's term `aggK YS row col dinv`, at rows `YS` that are
  the rows `Y'` already scaled by the source's normaliser, is the reference's term `convR Y' E`. The index arrays on
  the two sides are the same terms; a target that lands in range is not negative, so wrapping and clamping leave it
  alone; the rest is `GcnLayer.layer_eq`.
-/
import proofs.«141483_j2800318677072_2_alg».proof.Proof.GcnTerms
import proofs.«141483_j2800318677072_2_alg».proof.Proof.GcnLayer
import Idealize.ShloMosaic.Lib.IdealHost
import Idealize.ShloMosaic.PureOps.Ideal.Laws

noncomputable section

namespace Cert.Gcn

open Idealize.ShloMosaic Idealize.ShloMosaic.ValueIdx Cert.ReferenceIdeal Cert.ReferenceIdeal.Gen Cert.ReferenceIdeal.Read

/-- A signed comparison with zero of a word that is not negative answers "no". -/
theorem cmpi_slt_zero_of_nonneg (x : BitVec 32) (h : 0 ≤ x.toInt) : IntOp.cmpi .slt x 0#32 = 0#1 := by
  have : x.slt 0#32 = false := by
    simp only [BitVec.slt, decide_eq_false_iff_not, not_lt]
    simpa using h
  simp only [IntOp.cmpi, this]
  rfl

variable (E : IVec S2x1600000 32)

theorem zeros2_apply (i : S100000x128.Idx) : (val_main_v41 (F := Ideal) i : EReal) = 0 := by
  rw [val_main_v41_apply, val_main_cst_6_apply]
  exact Ideal.ofBits_zero_f32

theorem zeros1_apply (n : S100000.Idx) : (val_main_v12 (F := Ideal) n : EReal) = 0 := by
  rw [val_main_v12_apply, val_main_cst_0_apply]
  exact Ideal.ofBits_zero_f32

theorem ones_apply (e : S1700000.Idx) : (val_main_v11 (F := Ideal) e : EReal) = 1 := by
  rw [val_main_v11_apply, val_main_cst_apply]
  exact Ideal.ofBits_one_f32

/-- A target in range read through the wrapping and clamping index is itself. -/
theorem col_in_range (e : Fin 1700000) (n : Fin 100000)
    (h : (val_main_v13 (F := Ideal) E (ix2 e (0 : Fin 1))).toInt = (n.val : Int)) :
    min (val_main_v28 (F := Ideal) E (ix2 e (0 : Fin 1))).toInt.toNat (100000 - 1) = n.val := by
  rw [val_main_v13_apply] at h
  rw [val_main_v28_apply, val_main_v27_apply, val_main_v24_apply, val_main_v23_apply, val_main_c_2_apply]
  have h' : (val_main_v6 (F := Ideal) E (idx_main_v28 (ix2 e (0 : Fin 1)))).toInt = (n.val : Int) := h
  rw [cmpi_slt_zero_of_nonneg _ (by rw [h']; exact Int.natCast_nonneg _), select_zero, h']
  have := n.isLt
  omega

/-- The normaliser array is the reciprocal square root of the count of the edges landing on each node. -/
theorem dinv_apply (n : S100000.Idx) :
    (val_main_v15 (F := Ideal) E n : EReal)
      = Ideal.rsqrt (Host.scatterAdd (F := Ideal) (φ := .f32)
          (RowScatter.vecScatter 100000 1700000 scatter_S100000_S1700000x1_S1700000_n_0_0_1_wf)
          (val_main_v12 (F := Ideal)) (val_main_v13 (F := Ideal) E) (val_main_v11 (F := Ideal)) n) := by
  have hd : scatter_S100000_S1700000x1_S1700000_n_0_0_1
      = RowScatter.vecScatter 100000 1700000 scatter_S100000_S1700000x1_S1700000_n_0_0_1_wf := rfl
  rw [val_main_v15_apply, Ideal.hostUnary_rsqrt_def, ← hd]
  unfold val_main_v14
  exact congrArg Ideal.rsqrt (Eq.refl _)

/-- The per-edge scale is the product of the two ends' normalisers, each read through the clamping gather. -/
theorem norm_apply (e : Fin 1700000) (q : Fin 128) :
    (val_main_v39 (F := Ideal) E (ix2 e q) : EReal)
      = Host.gather (RowScatter.vecGather 100000 1700000 gather_S100000_S1700000x1_S1700000_n_0_n_n_0_1_1_wf)
          (val_main_v15 (F := Ideal) E) (val_main_v36 (F := Ideal) E) (ix1 e)
        * Host.gather (RowScatter.vecGather 100000 1700000 gather_S100000_S1700000x1_S1700000_n_0_n_n_0_1_1_wf)
          (val_main_v15 (F := Ideal) E) (val_main_v28 (F := Ideal) E) (ix1 e) := by
  have hi : idx_main_v38 (idx_main_v39 (ix2 e q)) = ix1 e :=
    funext fun a => Fin.ext (by match a with | ⟨0, _⟩ => rfl)
  rw [val_main_v39_apply, val_main_v38_apply, val_main_v30_apply, hi]
  rfl

/-- The normaliser broadcast along the rows, read at an entry. -/
theorem dcol_apply (dinv : FVec Ideal Cert.KernelIdeal.S100000 .f32) (p : Fin 100000) (q : Fin 128) :
    (broadcastInDim Cert.KernelIdeal.S100000x128 ![0, 1] Cert.KernelIdeal.Gen.bcast_S100000x1_S100000x128_0_1
      (broadcastInDim Cert.KernelIdeal.S100000x1 ![0] Cert.KernelIdeal.Gen.bcast_S100000_S100000x1_0 dinv)) (ix2 p q)
      = dinv (ix1 p) := by
  rw [broadcastInDim_apply _ Cert.KernelIdeal.Gen.bcast_S100000x1_S100000x128_0_1 _ (ix2 p q) (ix2 p (0 : Fin 1))
      (fun a => match a with
        | ⟨0, _⟩ => by show p.val = if (100000 : Nat) = 1 then 0 else p.val; rw [if_neg (by decide)]
        | ⟨1, _⟩ => by show 0 = if (1 : Nat) = 1 then 0 else q.val; rw [if_pos rfl]),
    broadcastInDim_apply _ Cert.KernelIdeal.Gen.bcast_S100000_S100000x1_0 _ (ix2 p (0 : Fin 1)) (ix1 p)
      (fun a => match a with
        | ⟨0, _⟩ => by show p.val = if (100000 : Nat) = 1 then 0 else p.val; rw [if_neg (by decide)])]

/-- The kernel's arrangement of the aggregation is the reference's. -/
theorem agg_eq (Y' YS : FVec Ideal S100000x128 .f32)
    (hYS : ∀ (p : Fin 100000) (q : Fin 128), YS (ix2 p q) = Y' (ix2 p q) * val_main_v15 (F := Ideal) E (ix1 p)) :
    aggK YS (val_main_v3 (F := Ideal) E) (val_main_v6 (F := Ideal) E) (val_main_v15 (F := Ideal) E) = convR Y' E := by
  unfold aggK convR
  exact GcnLayer.layer_eq (N := 100000) (C := 128) (R := 1700000) (by decide)
    scatter_S100000x128_S1700000x1_S1700000x128_1_0_0_1_wf scatter_S100000_S1700000x1_S1700000_n_0_0_1_wf
    gather_S100000x128_S1700000x1_S1700000x128_1_0_n_n_0_1_1128_wf gather_S100000_S1700000x1_S1700000_n_0_n_n_0_1_1_wf
    Y' YS _ (val_main_v41 (F := Ideal)) (val_main_v39 (F := Ideal) E)
    (val_main_v15 (F := Ideal) E) (val_main_v12 (F := Ideal)) (val_main_v11 (F := Ideal))
    (val_main_v13 (F := Ideal) E) (val_main_v36 (F := Ideal) E) (val_main_v28 (F := Ideal) E)
    zeros2_apply zeros1_apply ones_apply (col_in_range E) (dinv_apply E) hYS
    (dcol_apply (val_main_v15 (F := Ideal) E)) (norm_apply E)

end Cert.Gcn

end
-- ==== Proof.KernelEdges.lean ====
/-
  The kernel program's edge stages are the reference's.

  Before its first region the kernel program computes, on the host, the edges' sources and targets from the edge array
  (each row of the array followed by the self loops) and the reciprocal square root of the in-degree. The reference
  program computes the same three arrays by the same operations: as terms of the edge array they coincide.
-/
import proofs.«141483_j2800318677072_2_alg».proof.Proof.KernelRun
import proofs.«141483_j2800318677072_2_alg».proof.Proof.GcnTerms
import Idealize.ShloMosaic.Lib.StableHlo.Run

set_option maxRecDepth 16384

noncomputable section

namespace Cert.KernelIdeal.HostEdges

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The edges' sources. -/
theorem row_eq (c : Dev nD) :
    W1 (F := Ideal) m ρ c (Proc.devRef .tc main_v3)
      = Cert.ReferenceIdeal.Read.val_main_v3 (F := Ideal) (m ((c.tc : Thread nD τ).loc main_arg1)) := by
  show StableHlo.after hostOps0 (W0 m ρ c) (Proc.devRef .tc main_v3) = _
  after_results
  rfl

/-- The edges' targets. -/
theorem col_eq (c : Dev nD) :
    W1 (F := Ideal) m ρ c (Proc.devRef .tc main_v6)
      = Cert.ReferenceIdeal.Read.val_main_v6 (F := Ideal) (m ((c.tc : Thread nD τ).loc main_arg1)) := by
  show StableHlo.after hostOps0 (W0 m ρ c) (Proc.devRef .tc main_v6) = _
  after_results
  rfl

/-- The normalisers. -/
theorem dinv_eq (c : Dev nD) :
    W1 (F := Ideal) m ρ c (Proc.devRef .tc main_v11)
      = Cert.ReferenceIdeal.Read.val_main_v15 (F := Ideal) (m ((c.tc : Thread nD τ).loc main_arg1)) := by
  show StableHlo.after hostOps0 (W0 m ρ c) (Proc.devRef .tc main_v11) = _
  after_results
  rfl

end Cert.KernelIdeal.HostEdges

end
-- ==== Proof.Final.lean ====
/-
  The idealized kernel program's result is the reference's result term of the same arguments.

  Layer by layer. The first region leaves the rows `x·W1 + b1` scaled by the source's normaliser; gathered, summed into
  their targets and scaled by the target's normaliser they are the reference's first aggregation of `x·W1 + b1`
  (`Cert.Gcn.agg_eq`), and the maximum with zero of the two is one array, the hidden layer. The second region and the
  host operations after it repeat this at the hidden layer with `W2`, `b2`. The last region sums the maximum with zero
  of the second aggregation over the nodes and multiplies by 1/100000, where the reference divides the same sum by
  100000.
-/
import proofs.«141483_j2800318677072_2_alg».proof.Proof.KernelValue
import proofs.«141483_j2800318677072_2_alg».proof.Proof.KernelTail
import proofs.«141483_j2800318677072_2_alg».proof.Proof.RefValue
import proofs.«141483_j2800318677072_2_alg».proof.Proof.GcnBridge
import proofs.«141483_j2800318677072_2_alg».proof.Proof.KernelEdges

set_option maxRecDepth 16384

noncomputable section

namespace Cert.Proof.Value

open Cert.KernelIdeal Cert.KernelIdeal.Gen Idealize.ShloMosaic Idealize.ShloMosaic.TcCoe Idealize.SL.Sem
open Idealize.ShloMosaic.ValueIdx Cert.ReferenceIdeal.Read
open Cert.KernelIdeal.HostValue Cert.KernelIdeal.HostTail Cert.KernelIdeal.HostEdges Cert.ReferenceIdeal.RefValue

variable (m : (ℓ : Loc nD τ sig) → Buf (Elt Ideal) ℓ) (ρ : Dev nD → PrngReg)

/-- The program's six arguments on core `c`, typed as the reference's stages take them. -/
abbrev a0 (c : Dev nD) : (⟨Cert.ReferenceIdeal.S100000x128, .f32⟩ : BufTy).Contents (Elt Ideal) := m ((c.tc : Thread nD τ).loc main_arg0)
abbrev a1 (c : Dev nD) : (⟨Cert.ReferenceIdeal.S2x1600000, .i32⟩ : BufTy).Contents (Elt Ideal) := m ((c.tc : Thread nD τ).loc main_arg1)
abbrev a2 (c : Dev nD) : (⟨Cert.ReferenceIdeal.S128x128, .f32⟩ : BufTy).Contents (Elt Ideal) := m ((c.tc : Thread nD τ).loc main_arg2)
abbrev a3 (c : Dev nD) : (⟨Cert.ReferenceIdeal.S128, .f32⟩ : BufTy).Contents (Elt Ideal) := m ((c.tc : Thread nD τ).loc main_arg3)
abbrev a4 (c : Dev nD) : (⟨Cert.ReferenceIdeal.S128x128, .f32⟩ : BufTy).Contents (Elt Ideal) := m ((c.tc : Thread nD τ).loc main_arg4)
abbrev a5 (c : Dev nD) : (⟨Cert.ReferenceIdeal.S128, .f32⟩ : BufTy).Contents (Elt Ideal) := m ((c.tc : Thread nD τ).loc main_arg5)

/-- The maximum with zero on the two sides is one term. -/
theorem relu_match (Z : FVec Ideal Cert.ReferenceIdeal.S100000x128 .f32) :
    Cert.Gcn.reluK Z = maximumf Z (val_main_call0_v0 (F := Ideal)) := by
  unfold Cert.Gcn.reluK val_main_call0_v0 val_main_call0_cst
  rfl

/-- The hidden layer: the kernel's is the reference's. -/
theorem hid1_ref (c : Dev nD) :
    hid1 m ρ c = val_main_v44 (F := Ideal) (a0 m c) (a1 m c) (a2 m c) (a3 m c) := by
  have hYS : ∀ (p : Fin 100000) (q : Fin 128), YS1 m ρ c (ix2 p q)
      = val_main_v10 (F := Ideal) (a0 m c) (a2 m c) (a3 m c) (ix2 p q) * val_main_v15 (F := Ideal) (a1 m c) (ix1 p) := by
    intro p q
    rw [YS1_apply m ρ c p q, lin_apply, ← dinv_eq m ρ c]
  rw [hid1_eq m ρ c]
  show Cert.Gcn.reluK (Cert.Gcn.aggK (YS1 m ρ c) (W1 m ρ c (Proc.devRef .tc main_v3)) (W1 m ρ c (Proc.devRef .tc main_v6))
    (W1 m ρ c (Proc.devRef .tc main_v11))) = _
  rw [row_eq m ρ c, col_eq m ρ c, dinv_eq m ρ c,
    Cert.Gcn.agg_eq (a1 m c) (val_main_v10 (F := Ideal) (a0 m c) (a2 m c) (a3 m c)) (YS1 m ρ c) hYS,
    ← v43_eq, relu_match]
  unfold val_main_v44
  rfl

/-- The second aggregation: the kernel's is the reference's. -/
theorem agg2_ref (c : Dev nD) :
    agg2 m ρ c = val_main_v81 (F := Ideal) (a0 m c) (a1 m c) (a2 m c) (a3 m c) (a4 m c) (a5 m c) := by
  have hYS : ∀ (p : Fin 100000) (q : Fin 128), YS2 m ρ c (ix2 p q)
      = val_main_v48 (F := Ideal) (a0 m c) (a1 m c) (a2 m c) (a3 m c) (a4 m c) (a5 m c) (ix2 p q)
        * val_main_v15 (F := Ideal) (a1 m c) (ix1 p) := by
    intro p q
    rw [v48_eq, lin_apply, ← hid1_ref m ρ c, ← dinv_eq m ρ c]
    exact YS2_apply m ρ c p q
  rw [agg2_eq m ρ c]
  show Cert.Gcn.aggK (YS2 m ρ c) (W1 m ρ c (Proc.devRef .tc main_v3)) (W1 m ρ c (Proc.devRef .tc main_v6))
    (W1 m ρ c (Proc.devRef .tc main_v11)) = _
  rw [row_eq m ρ c, col_eq m ρ c, dinv_eq m ρ c,
    Cert.Gcn.agg_eq (a1 m c) (val_main_v48 (F := Ideal) (a0 m c) (a1 m c) (a2 m c) (a3 m c) (a4 m c) (a5 m c))
      (YS2 m ρ c) hYS, ← v81_eq]

/-- The result buffer's final contents are the reference's result term of the kernel program's arguments. -/
theorem result_eq (c : Dev nD) :
    W9 (F := Ideal) m ρ c (Proc.devRef .tc main_v46)
      = val_main_v85 (F := Ideal) (a0 m c) (a1 m c) (a2 m c) (a3 m c) (a4 m c) (a5 m c) := by
  funext i
  obtain ⟨q, rfl⟩ : ∃ q : Fin 128, i = ix1 q := ⟨i 0, eq_ix1 i⟩
  rw [out_apply, ← agg2_ref m ρ c]
  exact result_apply m ρ c q

end Cert.Proof.Value

end
-- ==== Proof.lean ====
/-
  The certificate of a two-layer graph convolution with mean pooling.

  The kernel program computes `mean over nodes of relu(Â · relu(Â · (x·W1 + b1)) ·W2 + b2)` with the normalised
  adjacency `Â = D^(-1/2) (A + I) D^(-1/2)` applied as: scale the rows by the source's `D^(-1/2)` inside the dense
  kernel, gather and add along the edges on the host, scale by the target's `D^(-1/2)`; the last kernel sums
  `relu` of the second layer over the nodes and multiplies by the named reciprocal 1/100000. The reference scales
  each edge's message by the product of the two normalisers and divides the sum by 100000. On the extended reals the
  two are one function of the arguments: the normaliser of a node some edge lands on is a finite nonnegative number,
  which distributes over the sum of the landed messages; no finiteness of the inputs is used.
  The three frames are the generated ones (the reference's is its generated run with the result dropped).
-/
import proofs.«141483_j2800318677072_2_alg».proof.Defs
import proofs.«141483_j2800318677072_2_alg».proof.Proof.Gen.Kernel
import proofs.«141483_j2800318677072_2_alg».proof.Proof.Gen.Kernel.Skeleton
import proofs.«141483_j2800318677072_2_alg».proof.Proof.Gen.Kernel.Launch
import proofs.«141483_j2800318677072_2_alg».proof.Proof.Gen.Kernel.Points
import proofs.«141483_j2800318677072_2_alg».proof.Proof.Gen.Kernel.Frame
import proofs.«141483_j2800318677072_2_alg».proof.Proof.Gen.KernelIdeal
import proofs.«141483_j2800318677072_2_alg».proof.Proof.Gen.KernelIdeal.Skeleton
import proofs.«141483_j2800318677072_2_alg».proof.Proof.Gen.KernelIdeal.Launch
import proofs.«141483_j2800318677072_2_alg».proof.Proof.Gen.KernelIdeal.Points
import proofs.«141483_j2800318677072_2_alg».proof.Proof.Gen.KernelIdeal.Frame
import proofs.«141483_j2800318677072_2_alg».proof.Proof.Gen.ReferenceIdeal
import proofs.«141483_j2800318677072_2_alg».proof.Proof.Gen.ReferenceIdeal.Run
import proofs.«141483_j2800318677072_2_alg».proof.Proof.Gen.ReferenceIdeal.Read
import proofs.«141483_j2800318677072_2_alg».proof.Proof.Gen.Pre_finite_inputs
import proofs.«141483_j2800318677072_2_alg».proof.Proof.KernelRun
import proofs.«141483_j2800318677072_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewritten constant: the table gives "inv_100000" the value 1/100000, and the printed constant is that
    value on the extended reals. -/
theorem preserves : Cert.preserves_Kernel_KernelIdeal :=
  IdealRules.named_const.statement Cert.KernelIdeal.κ "inv_100000" .f32 0x3727C5AC#32 ((1 / 100000 : ℝ) : EReal) rfl

/-- From memories agreeing on the arguments both programs run, and the kernel program's result buffer ends at the
    reference's result term of those arguments. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v46),
    Cert.KernelIdeal.ValueRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v85_eq, (hagree c).1, (hagree c).2.1, (hagree c).2.2.1, (hagree c).2.2.2.1,
    (hagree c).2.2.2.2.1, (hagree c).2.2.2.2.2]
  exact (Cert.Proof.Value.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
